-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v82)) (v1 : (c : Dev Cert.KernelIdeal.nD) → Buf (Elt Ideal) ((c.tc : Thread Cert.KernelIdeal.nD Cert.KernelIdeal.τ).loc Cert.KernelIdeal.main_v99)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82) = v0 c
          ∧ r.2.mem ((c.tc : Thread Cert.KernelIdeal.nD Cert.KernelIdeal.τ).loc Cert.KernelIdeal.main_v99) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_v99) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S512x256 : Shape := ⟨2, ![512, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S2x800000 : Shape := ⟨2, ![2, 800000]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S256x128 .f32) (main_arg8 : FVec F S128 .f32) (main_v33 : IVec S_ 1) : IVec S_ 1 :=
  let main_v34 : FVec F S256x128 .f32 := Host.absf main_arg7
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg4 : FVec F S256 .f32) (main_arg5 : FVec F S256x128 .f32) (main_arg6 : FVec F S128 .f32) (main_arg7 : FVec F S256x128 .f32) (main_arg8 : FVec F S128 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x128 .f32 := Host.absf main_arg5
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_v33

def fn {F : FTy → Type} [FloatOps F] (main_arg0 : FVec F S50000x512 .f32) (main_arg1 : FVec F S512x256 .f32) (main_arg2 : FVec F S256 .f32) (main_arg3 : FVec F S256x256 .f32) (main_arg4 : FVec F S256 .f32) (main_arg5 : FVec F S256x128 .f32) (main_arg6 : FVec F S128 .f32) (main_arg7 : FVec F S256x128 .f32) (main_arg8 : FVec F S128 .f32) (main_arg9 : IVec S2x800000 32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_arg7 main_arg8 main_v13 main_v16
-- ==== Kernel.lean ====
abbrev S50000x512 : Shape := ⟨2, ![50000, 512]⟩
abbrev S512x256 : Shape := ⟨2, ![512, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S2x800000 : Shape := ⟨2, ![2, 800000]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S2000x512 : Shape := ⟨2, ![2000, 512]⟩
abbrev S2000x256 : Shape := ⟨2, ![2000, 256]⟩
abbrev S850000x256 : Shape := ⟨2, ![850000, 256]⟩
abbrev S1x256 : Shape := ⟨2, ![1, 256]⟩
abbrev S50000x128 : Shape := ⟨2, ![50000, 128]⟩
abbrev S2000x128 : Shape := ⟨2, ![2000, 128]⟩
abbrev S850000x128 : Shape := ⟨2, ![850000, 128]⟩
abbrev S1x128 : Shape := ⟨2, ![1, 128]⟩

abbrev nBuf : Space → Nat
  | .hbm => 136
  | .vmem => 20
  | .smem => 0
  | _ => 0

abbrev hbmTy0_0 (i : Nat) : BufTy := match i % 128 with
  | 0 => ⟨S50000x512, .f32⟩
  | 1 => ⟨S512x256, .f32⟩
  | 2 => ⟨S256, .f32⟩
  | 3 => ⟨S256x256, .f32⟩
  | 4 => ⟨S256, .f32⟩
  | 5 => ⟨S256x128, .f32⟩
  | 6 => ⟨S128, .f32⟩
  | 7 => ⟨S256x128, .f32⟩
  | 8 => ⟨S128, .f32⟩
  | 9 => ⟨S2x800000, .i32⟩
  | 10 => ⟨S50000, .i32⟩
  | 11 => ⟨S1x800000, .i32⟩
  | 12 => ⟨S800000, .i32⟩
  | 13 => ⟨S850000, .i32⟩
  | 14 => ⟨S1x800000, .i32⟩
  | 15 => ⟨S800000, .i32⟩
  | 16 => ⟨S850000, .i32⟩
  | 17 => ⟨S_, .f32⟩
  | 18 => ⟨S850000, .f32⟩
  | 19 => ⟨S_, .f32⟩
  | 20 => ⟨S50000, .f32⟩
  | 21 => ⟨S850000x1, .i32⟩
  | 22 => ⟨S50000, .f32⟩
  | 23 => ⟨S_, .f32⟩
  | 24 => ⟨S50000, .f32⟩
  | 25 => ⟨S50000, .i1⟩
  | 26 => ⟨S50000, .f32⟩
  | 27 => ⟨S_, .f32⟩
  | 28 => ⟨S_, .f32⟩
  | 29 => ⟨S50000, .f32⟩
  | 30 => ⟨S50000, .f32⟩
  | 31 => ⟨S_, .i32⟩
  | 32 => ⟨S850000, .i32⟩
  | 33 => ⟨S850000, .i1⟩
  | 34 => ⟨S_, .i32⟩
  | 35 => ⟨S850000, .i32⟩
  | 36 => ⟨S850000, .i32⟩
  | 37 => ⟨S850000, .i32⟩
  | 38 => ⟨S850000x1, .i32⟩
  | 39 => ⟨S850000, .f32⟩
  | 40 => ⟨S_, .i32⟩
  | 41 => ⟨S850000, .i32⟩
  | 42 => ⟨S850000, .i1⟩
  | 43 => ⟨S_, .i32⟩
  | 44 => ⟨S850000, .i32⟩
  | 45 => ⟨S850000, .i32⟩
  | 46 => ⟨S850000, .i32⟩
  | 47 => ⟨S850000x1, .i32⟩
  | 48 => ⟨S850000, .f32⟩
  | 49 => ⟨S850000, .f32⟩
  | 50 => ⟨S50000x256, .f32⟩
  | 51 => ⟨S_, .i32⟩
  | 52 => ⟨S850000, .i32⟩
  | 53 => ⟨S850000, .i1⟩
  | 54 => ⟨S_, .i32⟩
  | 55 => ⟨S850000, .i32⟩
  | 56 => ⟨S850000, .i32⟩
  | 57 => ⟨S850000, .i32⟩
  | 58 => ⟨S850000x1, .i32⟩
  | 59 => ⟨S850000x256, .f32⟩
  | 60 => ⟨S850000x1, .f32⟩
  | 61 => ⟨S850000x256, .f32⟩
  | 62 => ⟨S850000x256, .f32⟩
  | 63 => ⟨S_, .f32⟩
  | 64 => ⟨S50000x256, .f32⟩
  | 65 => ⟨S850000x1, .i32⟩
  | 66 => ⟨S50000x256, .f32⟩
  | 67 => ⟨S1x256, .f32⟩
  | 68 => ⟨S50000x256, .f32⟩
  | 69 => ⟨S50000x256, .f32⟩
  | 70 => ⟨S_, .f32⟩
  | 71 => ⟨S50000x256, .f32⟩
  | 72 => ⟨S50000x256, .f32⟩
  | 73 => ⟨S50000x256, .f32⟩
  | 74 => ⟨S_, .i32⟩
  | 75 => ⟨S850000, .i32⟩
  | 76 => ⟨S850000, .i1⟩
  | 77 => ⟨S_, .i32⟩
  | 78 => ⟨S850000, .i32⟩
  | 79 => ⟨S850000, .i32⟩
  | 80 => ⟨S850000, .i32⟩
  | 81 => ⟨S850000x1, .i32⟩
  | 82 => ⟨S850000x256, .f32⟩
  | 83 => ⟨S850000x1, .f32⟩
  | 84 => ⟨S850000x256, .f32⟩
  | 85 => ⟨S850000x256, .f32⟩
  | 86 => ⟨S_, .f32⟩
  | 87 => ⟨S50000x256, .f32⟩
  | 88 => ⟨S850000x1, .i32⟩
  | 89 => ⟨S50000x256, .f32⟩
  | 90 => ⟨S1x256, .f32⟩
  | 91 => ⟨S50000x256, .f32⟩
  | 92 => ⟨S50000x256, .f32⟩
  | 93 => ⟨S_, .f32⟩
  | 94 => ⟨S50000x256, .f32⟩
  | 95 => ⟨S50000x256, .f32⟩
  | 96 => ⟨S50000x128, .f32⟩
  | 97 => ⟨S_, .i32⟩
  | 98 => ⟨S850000, .i32⟩
  | 99 => ⟨S850000, .i1⟩
  | 100 => ⟨S_, .i32⟩
  | 101 => ⟨S850000, .i32⟩
  | 102 => ⟨S850000, .i32⟩
  | 103 => ⟨S850000, .i32⟩
  | 104 => ⟨S850000x1, .i32⟩
  | 105 => ⟨S850000x128, .f32⟩
  | 106 => ⟨S850000x1, .f32⟩
  | 107 => ⟨S850000x128, .f32⟩
  | 108 => ⟨S850000x128, .f32⟩
  | 109 => ⟨S_, .f32⟩
  | 110 => ⟨S50000x128, .f32⟩
  | 111 => ⟨S850000x1, .i32⟩
  | 112 => ⟨S50000x128, .f32⟩
  | 113 => ⟨S1x128, .f32⟩
  | 114 => ⟨S50000x128, .f32⟩
  | 115 => ⟨S50000x128, .f32⟩
  | 116 => ⟨S50000x128, .f32⟩
  | 117 => ⟨S_, .i32⟩
  | 118 => ⟨S850000, .i32⟩
  | 119 => ⟨S850000, .i1⟩
  | 120 => ⟨S_, .i32⟩
  | 121 => ⟨S850000, .i32⟩
  | 122 => ⟨S850000, .i32⟩
  | 123 => ⟨S850000, .i32⟩
  | 124 => ⟨S850000x1, .i32⟩
  | 125 => ⟨S850000x128, .f32⟩
  | 126 => ⟨S850000x1, .f32⟩
  | 127 => ⟨S850000x128, .f32⟩
  | _ => ⟨S50000x512, .f32⟩

abbrev hbmTy0_1 (i : Nat) : BufTy := match i % 128 with
  | 0 => ⟨S850000x128, .f32⟩
  | 1 => ⟨S_, .f32⟩
  | 2 => ⟨S50000x128, .f32⟩
  | 3 => ⟨S850000x1, .i32⟩
  | 4 => ⟨S50000x128, .f32⟩
  | 5 => ⟨S1x128, .f32⟩
  | 6 => ⟨S50000x128, .f32⟩
  | 7 => ⟨S50000x128, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | .local _ .vmem, ⟨0, _⟩ => ⟨S2000x512, .f32⟩
  | .local _ .vmem, ⟨1, _⟩ => ⟨S2000x512, .f32⟩
  | .local _ .vmem, ⟨2, _⟩ => ⟨S512x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S256x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S256x128, .f32⟩
  | .local _ .vmem, ⟨13, _⟩ => ⟨S2000x128, .f32⟩
  | .local _ .vmem, ⟨14, _⟩ => ⟨S2000x128, .f32⟩
  | .local _ .vmem, ⟨15, _⟩ => ⟨S2000x256, .f32⟩
  | .local _ .vmem, ⟨16, _⟩ => ⟨S2000x256, .f32⟩
  | .local _ .vmem, ⟨17, _⟩ => ⟨S256x128, .f32⟩
  | .local _ .vmem, ⟨18, _⟩ => ⟨S2000x128, .f32⟩
  | .local _ .vmem, ⟨19, _⟩ => ⟨S2000x128, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_call1_cst : Ref sig .tc := ⟨.hbm, 70, rfl⟩
abbrev main_call1_v0 : Ref sig .tc := ⟨.hbm, 71, rfl⟩
abbrev main_v47 : Ref sig .tc := ⟨.hbm, 72, rfl⟩
abbrev main_v48 : Ref sig .tc := ⟨.hbm, 73, rfl⟩
abbrev main_c_9 : Ref sig .tc := ⟨.hbm, 74, rfl⟩
abbrev main_v49 : Ref sig .tc := ⟨.hbm, 75, rfl⟩
abbrev main_v50 : Ref sig .tc := ⟨.hbm, 76, rfl⟩
abbrev main_c_10 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_11 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_call2_cst : Ref sig .tc := ⟨.hbm, 93, rfl⟩
abbrev main_call2_v0 : Ref sig .tc := ⟨.hbm, 94, rfl⟩
abbrev main_v65 : Ref sig .tc := ⟨.hbm, 95, rfl⟩
abbrev main_v66 : Ref sig .tc := ⟨.hbm, 96, rfl⟩
abbrev main_c_12 : Ref sig .tc := ⟨.hbm, 97, rfl⟩
abbrev main_v67 : Ref sig .tc := ⟨.hbm, 98, rfl⟩
abbrev main_v68 : Ref sig .tc := ⟨.hbm, 99, rfl⟩
abbrev main_c_13 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_cst_14 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_c_15 : Ref sig .tc := ⟨.hbm, 117, rfl⟩
abbrev main_v84 : Ref sig .tc := ⟨.hbm, 118, rfl⟩
abbrev main_v85 : Ref sig .tc := ⟨.hbm, 119, rfl⟩
abbrev main_c_16 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_cst_17 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S2000x256_S2000x256_0_0 : ∀ a, (![0, 0] : Fin 2 → Nat) a + S2000x256.size a ≤ S2000x256.size a
  h_S2000x256 : 0 < S2000x256.numel
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  inb_S256x128_S256x128_0_0 : ∀ a, (![0, 0] : Fin 2 → Nat) a + S256x128.size a ≤ S256x128.size a
  h_S256x128 : 0 < S256x128.numel
  inb_S2000x128_S2000x128_0_0 : ∀ a, (![0, 0] : Fin 2 → Nat) a + S2000x128.size a ≤ S2000x128.size a
  h_S2000x128 : 0 < S2000x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x512_S512x256_S2000x256_1_0_0_1_n_n_wf : DotDims.WF S2000x512 S512x256 S2000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S2000x256_S256x256_S2000x256_1_0_0_1_n_n_wf : DotDims.WF S2000x256 S256x256 S2000x256 [1] [0] [0] [1] [] []
  dot_S2000x256_S256x128_S2000x128_1_0_0_1_n_n_wf : DotDims.WF S2000x256 S256x128 S2000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S50000x256.size a
  hwx1_2 : ∀ i : grid1.Coords, EltTy.bits .f32 = 32 ∨ (Rect.block (s := S50000x256) S2000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x128.size a ≤ S256x128.size a
  hwx2_1 : ∀ i : grid2.Coords, EltTy.bits .f32 = 32 ∨ (Rect.block (s := S256x128) S256x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .f32 = 32 ∨ (Rect.block (s := S50000x128) S2000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x128.size a ≤ S256x128.size a
  hwx3_1 : ∀ i : grid3.Coords, EltTy.bits .f32 = 32 ∨ (Rect.block (s := S256x128) S256x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S50000x128.size a
  hwx3_2 : ∀ i : grid3.Coords, EltTy.bits .f32 = 32 ∨ (Rect.block (s := S50000x128) S2000x128.size (cc3_transform_2 i) (hinb3_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S2000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v65) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S256x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v66) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v65) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S256x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v83) S2000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x512 : Shape := ⟨2, ![50000, 512]⟩
abbrev S512x256 : Shape := ⟨2, ![512, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S2x800000 : Shape := ⟨2, ![2, 800000]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S850000x256 : Shape := ⟨2, ![850000, 256]⟩
abbrev S1x256 : Shape := ⟨2, ![1, 256]⟩
abbrev S50000x128 : Shape := ⟨2, ![50000, 128]⟩
abbrev S850000x128 : Shape := ⟨2, ![850000, 128]⟩
abbrev S1x128 : Shape := ⟨2, ![1, 128]⟩

abbrev nBuf : Space → Nat
  | .hbm => 136
  | .vmem => 0
  | .smem => 0
  | _ => 0

abbrev hbmTy0_0 (i : Nat) : BufTy := match i % 128 with
  | 0 => ⟨S50000x512, .f32⟩
  | 1 => ⟨S512x256, .f32⟩
  | 2 => ⟨S256, .f32⟩
  | 3 => ⟨S256x256, .f32⟩
  | 4 => ⟨S256, .f32⟩
  | 5 => ⟨S256x128, .f32⟩
  | 6 => ⟨S128, .f32⟩
  | 7 => ⟨S256x128, .f32⟩
  | 8 => ⟨S128, .f32⟩
  | 9 => ⟨S2x800000, .i32⟩
  | 10 => ⟨S50000, .i32⟩
  | 11 => ⟨S1x800000, .i32⟩
  | 12 => ⟨S800000, .i32⟩
  | 13 => ⟨S850000, .i32⟩
  | 14 => ⟨S1x800000, .i32⟩
  | 15 => ⟨S800000, .i32⟩
  | 16 => ⟨S850000, .i32⟩
  | 17 => ⟨S_, .f32⟩
  | 18 => ⟨S850000, .f32⟩
  | 19 => ⟨S_, .f32⟩
  | 20 => ⟨S50000, .f32⟩
  | 21 => ⟨S850000x1, .i32⟩
  | 22 => ⟨S50000, .f32⟩
  | 23 => ⟨S_, .f32⟩
  | 24 => ⟨S50000, .f32⟩
  | 25 => ⟨S50000, .i1⟩
  | 26 => ⟨S50000, .f32⟩
  | 27 => ⟨S_, .f32⟩
  | 28 => ⟨S_, .f32⟩
  | 29 => ⟨S50000, .f32⟩
  | 30 => ⟨S50000, .f32⟩
  | 31 => ⟨S_, .i32⟩
  | 32 => ⟨S850000, .i32⟩
  | 33 => ⟨S850000, .i1⟩
  | 34 => ⟨S_, .i32⟩
  | 35 => ⟨S850000, .i32⟩
  | 36 => ⟨S850000, .i32⟩
  | 37 => ⟨S850000, .i32⟩
  | 38 => ⟨S850000x1, .i32⟩
  | 39 => ⟨S850000, .f32⟩
  | 40 => ⟨S_, .i32⟩
  | 41 => ⟨S850000, .i32⟩
  | 42 => ⟨S850000, .i1⟩
  | 43 => ⟨S_, .i32⟩
  | 44 => ⟨S850000, .i32⟩
  | 45 => ⟨S850000, .i32⟩
  | 46 => ⟨S850000, .i32⟩
  | 47 => ⟨S850000x1, .i32⟩
  | 48 => ⟨S850000, .f32⟩
  | 49 => ⟨S850000, .f32⟩
  | 50 => ⟨S50000x256, .f32⟩
  | 51 => ⟨S_, .i32⟩
  | 52 => ⟨S850000, .i32⟩
  | 53 => ⟨S850000, .i1⟩
  | 54 => ⟨S_, .i32⟩
  | 55 => ⟨S850000, .i32⟩
  | 56 => ⟨S850000, .i32⟩
  | 57 => ⟨S850000, .i32⟩
  | 58 => ⟨S850000x1, .i32⟩
  | 59 => ⟨S850000x256, .f32⟩
  | 60 => ⟨S850000x1, .f32⟩
  | 61 => ⟨S850000x256, .f32⟩
  | 62 => ⟨S850000x256, .f32⟩
  | 63 => ⟨S_, .f32⟩
  | 64 => ⟨S50000x256, .f32⟩
  | 65 => ⟨S850000x1, .i32⟩
  | 66 => ⟨S50000x256, .f32⟩
  | 67 => ⟨S1x256, .f32⟩
  | 68 => ⟨S50000x256, .f32⟩
  | 69 => ⟨S50000x256, .f32⟩
  | 70 => ⟨S_, .f32⟩
  | 71 => ⟨S50000x256, .f32⟩
  | 72 => ⟨S50000x256, .f32⟩
  | 73 => ⟨S50000x256, .f32⟩
  | 74 => ⟨S_, .i32⟩
  | 75 => ⟨S850000, .i32⟩
  | 76 => ⟨S850000, .i1⟩
  | 77 => ⟨S_, .i32⟩
  | 78 => ⟨S850000, .i32⟩
  | 79 => ⟨S850000, .i32⟩
  | 80 => ⟨S850000, .i32⟩
  | 81 => ⟨S850000x1, .i32⟩
  | 82 => ⟨S850000x256, .f32⟩
  | 83 => ⟨S850000x1, .f32⟩
  | 84 => ⟨S850000x256, .f32⟩
  | 85 => ⟨S850000x256, .f32⟩
  | 86 => ⟨S_, .f32⟩
  | 87 => ⟨S50000x256, .f32⟩
  | 88 => ⟨S850000x1, .i32⟩
  | 89 => ⟨S50000x256, .f32⟩
  | 90 => ⟨S1x256, .f32⟩
  | 91 => ⟨S50000x256, .f32⟩
  | 92 => ⟨S50000x256, .f32⟩
  | 93 => ⟨S_, .f32⟩
  | 94 => ⟨S50000x256, .f32⟩
  | 95 => ⟨S50000x256, .f32⟩
  | 96 => ⟨S50000x128, .f32⟩
  | 97 => ⟨S_, .i32⟩
  | 98 => ⟨S850000, .i32⟩
  | 99 => ⟨S850000, .i1⟩
  | 100 => ⟨S_, .i32⟩
  | 101 => ⟨S850000, .i32⟩
  | 102 => ⟨S850000, .i32⟩
  | 103 => ⟨S850000, .i32⟩
  | 104 => ⟨S850000x1, .i32⟩
  | 105 => ⟨S850000x128, .f32⟩
  | 106 => ⟨S850000x1, .f32⟩
  | 107 => ⟨S850000x128, .f32⟩
  | 108 => ⟨S850000x128, .f32⟩
  | 109 => ⟨S_, .f32⟩
  | 110 => ⟨S50000x128, .f32⟩
  | 111 => ⟨S850000x1, .i32⟩
  | 112 => ⟨S50000x128, .f32⟩
  | 113 => ⟨S1x128, .f32⟩
  | 114 => ⟨S50000x128, .f32⟩
  | 115 => ⟨S50000x128, .f32⟩
  | 116 => ⟨S50000x128, .f32⟩
  | 117 => ⟨S_, .i32⟩
  | 118 => ⟨S850000, .i32⟩
  | 119 => ⟨S850000, .i1⟩
  | 120 => ⟨S_, .i32⟩
  | 121 => ⟨S850000, .i32⟩
  | 122 => ⟨S850000, .i32⟩
  | 123 => ⟨S850000, .i32⟩
  | 124 => ⟨S850000x1, .i32⟩
  | 125 => ⟨S850000x128, .f32⟩
  | 126 => ⟨S850000x1, .f32⟩
  | 127 => ⟨S850000x128, .f32⟩
  | _ => ⟨S50000x512, .f32⟩

abbrev hbmTy0_1 (i : Nat) : BufTy := match i % 128 with
  | 0 => ⟨S850000x128, .f32⟩
  | 1 => ⟨S_, .f32⟩
  | 2 => ⟨S50000x128, .f32⟩
  | 3 => ⟨S850000x1, .i32⟩
  | 4 => ⟨S50000x128, .f32⟩
  | 5 => ⟨S1x128, .f32⟩
  | 6 => ⟨S50000x128, .f32⟩
  | 7 => ⟨S50000x128, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_call1_cst : Ref sig .tc := ⟨.hbm, 70, rfl⟩
abbrev main_call1_v0 : Ref sig .tc := ⟨.hbm, 71, rfl⟩
abbrev main_v47 : Ref sig .tc := ⟨.hbm, 72, rfl⟩
abbrev main_v48 : Ref sig .tc := ⟨.hbm, 73, rfl⟩
abbrev main_c_9 : Ref sig .tc := ⟨.hbm, 74, rfl⟩
abbrev main_v49 : Ref sig .tc := ⟨.hbm, 75, rfl⟩
abbrev main_v50 : Ref sig .tc := ⟨.hbm, 76, rfl⟩
abbrev main_c_10 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_11 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_call2_cst : Ref sig .tc := ⟨.hbm, 93, rfl⟩
abbrev main_call2_v0 : Ref sig .tc := ⟨.hbm, 94, rfl⟩
abbrev main_v65 : Ref sig .tc := ⟨.hbm, 95, rfl⟩
abbrev main_v66 : Ref sig .tc := ⟨.hbm, 96, rfl⟩
abbrev main_c_12 : Ref sig .tc := ⟨.hbm, 97, rfl⟩
abbrev main_v67 : Ref sig .tc := ⟨.hbm, 98, rfl⟩
abbrev main_v68 : Ref sig .tc := ⟨.hbm, 99, rfl⟩
abbrev main_c_13 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_cst_14 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_c_15 : Ref sig .tc := ⟨.hbm, 117, rfl⟩
abbrev main_v84 : Ref sig .tc := ⟨.hbm, 118, rfl⟩
abbrev main_v85 : Ref sig .tc := ⟨.hbm, 119, rfl⟩
abbrev main_c_16 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_cst_17 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x512_S512x256_S50000x256_1_0_0_1_n_n_wf : DotDims.WF S50000x512 S512x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x256_S50000x256_1_0_0_1_n_n_wf : DotDims.WF S50000x256 S256x256 S50000x256 [1] [0] [0] [1] [] []
  dot_S50000x256_S256x128_S50000x128_1_0_0_1_n_n_wf : DotDims.WF S50000x256 S256x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.KernelRun.lean ====
/-
  The kernel's run, with its two results read out.

  @main is thirteen segments in order — nine stretches of host operations and four pallas_calls — and the buffer contents at
  each boundary are a fold from the launch memory: a stretch applies its operations, a pallas_call replaces its three
  arrays by what its write-backs leave. Every weakly fair execution terminates without a fault in a state where every
  unscoped buffer holds the last boundary's contents; read at the two result buffers and at the ten arguments this is the
  statement below. The arguments are as launched because no segment writes one.
-/
import proofs.«126490_j50148038148378_1_alg».proof.Proof.Gen.KernelIdeal.Frame

set_option maxRecDepth 16384

noncomputable section

namespace Cert.KernelIdeal.Results

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the two results at the last boundary's contents
    and the arguments as launched. -/
theorem run : θ_run defs (onTc (τ := τ) (main (F := F))) ⟨m, fun _ => 0, ρ⟩ (fun r => ∀ c : Dev nD,
      r.2.mem ((c.tc : Thread nD τ).loc main_v82) = W13 m ρ c (Proc.devRef .tc main_v82)
      ∧ r.2.mem ((c.tc : Thread nD τ).loc main_v99) = W13 m ρ c (Proc.devRef .tc main_v99)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v82 (by decide)),
       h c _ (mem_uc main_v99 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c)⟩)

end Cert.KernelIdeal.Results

end
-- ==== Proof.Entry0.lean ====
/-
  What the first pallas_call finds.

  Before it, @main computes from the edge-index argument alone: the source list %3 and the target list %6 (each the
  800000 given ends followed by the 50000 self-loops 0 … 49999), the degrees by a scatter-add of ones, their inverse
  square roots guarded by "degree > 0", and the edge weights %29 = dinv[src] · dinv[dst]. The reference program computes
  the same arrays by the same operations, so each is named here by the reference's own stage of the edge-index argument.
  No host operation writes an argument, so every argument is still at its launch contents.
-/
import proofs.«126490_j50148038148378_1_alg».proof.Proof.Gen.KernelIdeal.Frame
import proofs.«126490_j50148038148378_1_alg».proof.Proof.RefReadP
import Idealize.ShloMosaic.Lib.StableHlo.Run

set_option maxRecDepth 16384

noncomputable section

namespace Cert.KernelIdeal.Entry0

open Idealize.ShloMosaic Idealize.ShloMosaic.TcCoe Idealize.SL.Sem Idealize.ShloMosaic.StableHlo
open Cert.KernelIdeal Cert.KernelIdeal.Gen
open Cert.ReferenceIdeal.Read (val_main_v3 val_main_v6 val_main_v29 val_main_v30 val_main_v47 val_main_v48 val_main_v65 val_main_v66
  val_main_v82 val_main_v83 val_main_v99)

variable (m : (ℓ : Loc nD τ sig) → Buf (Elt Ideal) ℓ) (ρ : Dev nD → PrngReg) (c : Dev nD)

/-! ## After the first stretch: the edge lists, "degree > 0", the inverse square roots of the degrees -/

theorem W1_v3 : W1 m ρ c (Proc.devRef .tc main_v3) = val_main_v3 (F := Ideal) (m ((c : Thread nD τ).loc main_arg9)) := by
  show StableHlo.after hostOps0 (W0 m ρ c) (Proc.devRef .tc main_v3) = _
  after_results
  rfl

theorem W1_v6 : W1 m ρ c (Proc.devRef .tc main_v6) = val_main_v6 (F := Ideal) (m ((c : Thread nD τ).loc main_arg9)) := by
  show StableHlo.after hostOps0 (W0 m ρ c) (Proc.devRef .tc main_v6) = _
  after_results
  rfl

theorem W1_v12 : W1 m ρ c (Proc.devRef .tc main_v12) = Cert.ReferenceIdeal.Read.val_main_v12 (F := Ideal) (m ((c : Thread nD τ).loc main_arg9)) := by
  show StableHlo.after hostOps0 (W0 m ρ c) (Proc.devRef .tc main_v12) = _
  after_results
  rfl

theorem W1_v13 : W1 m ρ c (Proc.devRef .tc main_v13) = Cert.ReferenceIdeal.Read.val_main_v13 (F := Ideal) (m ((c : Thread nD τ).loc main_arg9)) := by
  show StableHlo.after hostOps0 (W0 m ρ c) (Proc.devRef .tc main_v13) = _
  after_results
  rfl

theorem W1_cst_2 : W1 m ρ c (Proc.devRef .tc main_cst_2) = Cert.ReferenceIdeal.Read.val_main_cst_2 (F := Ideal) := by
  show StableHlo.after hostOps0 (W0 m ρ c) (Proc.devRef .tc main_cst_2) = _
  after_results
  rfl

/-! ## After the call of `where`: the guarded inverse square roots -/

/-- The three operations of `where`, over any contents: select by the mask between the second operand and the scalar spread
    over the 50000 nodes. -/
theorem where_eq (X : Valuation τ sig (Elt Ideal)) :
    StableHlo.after hostOps0_1 X (Proc.devRef .tc main_v14)
      = select (X (Proc.devRef .tc main_v12)) (X (Proc.devRef .tc main_v13))
          (broadcastInDim S50000 ![] bcast_S_S50000 (id (X (Proc.devRef .tc main_cst_2)))) := by
  after_results
  rfl

theorem W2_v14 : W2 m ρ c (Proc.devRef .tc main_v14) = Cert.ReferenceIdeal.Read.val_main_v14 (F := Ideal) (m ((c : Thread nD τ).loc main_arg9)) := by
  show StableHlo.after hostOps0_1 (W1 m ρ c) (Proc.devRef .tc main_v14) = _
  rw [where_eq, W1_v12 m ρ c, W1_v13 m ρ c, W1_cst_2 m ρ c]
  rfl

theorem W2_v3 : W2 m ρ c (Proc.devRef .tc main_v3) = val_main_v3 (F := Ideal) (m ((c : Thread nD τ).loc main_arg9)) := by
  refine Eq.trans ?_ (W1_v3 m ρ c)
  show StableHlo.after hostOps0_1 (W1 m ρ c) (Proc.devRef .tc main_v3) = _
  generalize W1 m ρ c = X
  after_results

theorem W2_v6 : W2 m ρ c (Proc.devRef .tc main_v6) = val_main_v6 (F := Ideal) (m ((c : Thread nD τ).loc main_arg9)) := by
  refine Eq.trans ?_ (W1_v6 m ρ c)
  show StableHlo.after hostOps0_1 (W1 m ρ c) (Proc.devRef .tc main_v6) = _
  generalize W1 m ρ c = X
  after_results

/-! ## At the first pallas_call's entry -/

/-- The source list. -/
theorem W3_v3 : W3 m ρ c (Proc.devRef .tc main_v3) = val_main_v3 (F := Ideal) (m ((c : Thread nD τ).loc main_arg9)) := by
  refine Eq.trans ?_ (W2_v3 m ρ c)
  show StableHlo.after hostOps0_2 (W2 m ρ c) (Proc.devRef .tc main_v3) = _
  generalize W2 m ρ c = X
  after_results

/-- The target list. -/
theorem W3_v6 : W3 m ρ c (Proc.devRef .tc main_v6) = val_main_v6 (F := Ideal) (m ((c : Thread nD τ).loc main_arg9)) := by
  refine Eq.trans ?_ (W2_v6 m ρ c)
  show StableHlo.after hostOps0_2 (W2 m ρ c) (Proc.devRef .tc main_v6) = _
  generalize W2 m ρ c = X
  after_results

set_option maxHeartbeats 2000000 in
/-- The edge weights. -/
theorem W3_v29 : W3 m ρ c (Proc.devRef .tc main_v29) = val_main_v29 (F := Ideal) (m ((c : Thread nD τ).loc main_arg9)) := by
  have e14 := W2_v14 m ρ c
  have e3 := W2_v3 m ρ c
  have e6 := W2_v6 m ρ c
  show StableHlo.after hostOps0_2 (W2 m ρ c) (Proc.devRef .tc main_v29) = _
  generalize W2 m ρ c = X at e14 e3 e6 ⊢
  after_results
  rw [e14, e3, e6]
  rfl

/-! ## The arguments -/

theorem W3_arg0 : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  after_results <;> rfl

theorem W3_arg1 : W3 m ρ c (Proc.devRef .tc main_arg1) = m ((c : Thread nD τ).loc main_arg1) := by
  show StableHlo.after hostOps0_2 (StableHlo.after hostOps0_1 (StableHlo.after hostOps0 (W0 m ρ c))) (Proc.devRef .tc main_arg1) = _
  after_results <;> rfl

theorem W3_arg2 : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  after_results <;> rfl

theorem W3_arg3 : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  after_results <;> rfl

theorem W3_arg4 : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  after_results <;> rfl

theorem W3_arg5 : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  after_results <;> rfl

theorem W3_arg6 : W3 m ρ c (Proc.devRef .tc main_arg6) = m ((c : Thread nD τ).loc main_arg6) := by
  show StableHlo.after hostOps0_2 (StableHlo.after hostOps0_1 (StableHlo.after hostOps0 (W0 m ρ c))) (Proc.devRef .tc main_arg6) = _
  after_results <;> rfl

theorem W3_arg7 : W3 m ρ c (Proc.devRef .tc main_arg7) = m ((c : Thread nD τ).loc main_arg7) := by
  show StableHlo.after hostOps0_2 (StableHlo.after hostOps0_1 (StableHlo.after hostOps0 (W0 m ρ c))) (Proc.devRef .tc main_arg7) = _
  after_results <;> rfl

theorem W3_arg8 : W3 m ρ c (Proc.devRef .tc main_arg8) = m ((c : Thread nD τ).loc main_arg8) := by
  show StableHlo.after hostOps0_2 (StableHlo.after hostOps0_1 (StableHlo.after hostOps0 (W0 m ρ c))) (Proc.devRef .tc main_arg8) = _
  after_results <;> rfl

theorem W3_arg9 : W3 m ρ c (Proc.devRef .tc main_arg9) = m ((c : Thread nD τ).loc main_arg9) := by
  show StableHlo.after hostOps0_2 (StableHlo.after hostOps0_1 (StableHlo.after hostOps0 (W0 m ρ c))) (Proc.devRef .tc main_arg9) = _
  after_results <;> rfl

end Cert.KernelIdeal.Entry0

end
-- ==== Proof.Kept.lean ====
/-
  Thirteen buffers no later segment changes.

  After the first stretches of host operations, @main never again writes the ten arguments, the two edge lists %3 and %6,
  or the edge weights %29: every later host operation writes a fresh buffer of its own, and a pallas_call changes its output
  array only. So at every later boundary of the fold each of the thirteen holds what the first pallas_call found.
-/
import proofs.«126490_j50148038148378_1_alg».proof.Proof.Gen.KernelIdeal.Frame
import Idealize.ShloMosaic.Lib.StableHlo.Run

set_option maxRecDepth 16384

noncomputable section

namespace Cert.KernelIdeal.Kept

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ) (ρ : Dev nD → PrngReg) (c : Dev nD)

/-- The ten arguments, the two edge lists, the edge weights. -/
abbrev kept : List (Ref sig .tc) :=
  [main_arg0, main_arg1, main_arg2, main_arg3, main_arg4, main_arg5, main_arg6, main_arg7, main_arg8, main_arg9,
   main_v3, main_v6, main_v29]

/-- A buffer that no operation of a literal stretch writes keeps its contents across the stretch: the buffers the
    operations write are read off the list, and each is a different reference. -/
local macro "not_written " ops:ident : tactic => `(tactic| (
  refine StableHlo.after_of_forall_not_mem _ _ (List.forall_iff_forall_mem.mp ?_)
  simp only [$ops:ident, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-- Pallas_call 0 changes the contents of its output array only; none of the thirteen is that array (two of them may be
    its inputs, which it leaves as it found them). -/
theorem step4 : ∀ b ∈ kept, W4 m ρ c (Proc.devRef .tc b) = W3 m ρ c (Proc.devRef .tc b) := by
  intro b hb
  simp only [kept, List.mem_cons, List.not_mem_nil, or_false] at hb
  rcases hb with rfl | rfl | rfl | rfl | rfl | rfl | rfl | rfl | rfl | rfl | rfl | rfl | rfl <;>
    first
    | exact W4_of_ne m ρ c _ (by decide)
    | exact (W4_arr m ρ c 0).trans (((dat0 (V3 m ρ) c).arrAt_in 0 rfl _).trans (A_eq0 (V3 m ρ) c 0))
    | exact (W4_arr m ρ c 1).trans (((dat0 (V3 m ρ) c).arrAt_in 1 rfl _).trans (A_eq0 (V3 m ρ) c 1))

set_option maxHeartbeats 1000000 in
/-- No operation of the stretch between boundaries 4 and 5 writes one of the thirteen. -/
theorem step5 : ∀ b ∈ kept, W5 m ρ c (Proc.devRef .tc b) = W4 m ρ c (Proc.devRef .tc b) := by
  intro b hb
  simp only [kept, List.mem_cons, List.not_mem_nil, or_false] at hb
  rcases hb with rfl | rfl | rfl | rfl | rfl | rfl | rfl | rfl | rfl | rfl | rfl | rfl | rfl <;> not_written hostOps1

set_option maxHeartbeats 1000000 in
/-- No operation of the stretch between boundaries 5 and 6 writes one of the thirteen. -/
theorem step6 : ∀ b ∈ kept, W6 m ρ c (Proc.devRef .tc b) = W5 m ρ c (Proc.devRef .tc b) := by
  intro b hb
  simp only [kept, List.mem_cons, List.not_mem_nil, or_false] at hb
  rcases hb with rfl | rfl | rfl | rfl | rfl | rfl | rfl | rfl | rfl | rfl | rfl | rfl | rfl <;> not_written hostOps1_1

/-- Pallas_call 1 changes the contents of its output array only; none of the thirteen is that array (two of them may be
    its inputs, which it leaves as it found them). -/
theorem step7 : ∀ b ∈ kept, W7 m ρ c (Proc.devRef .tc b) = W6 m ρ c (Proc.devRef .tc b) := by
  intro b hb
  simp only [kept, List.mem_cons, List.not_mem_nil, or_false] at hb
  rcases hb with rfl | rfl | rfl | rfl | rfl | rfl | rfl | rfl | rfl | rfl | rfl | rfl | rfl <;>
    first
    | exact W7_of_ne m ρ c _ (by decide)
    | exact (W7_arr m ρ c 0).trans (((dat1 (V6 m ρ) c).arrAt_in 0 rfl _).trans (A_eq1 (V6 m ρ) c 0))
    | exact (W7_arr m ρ c 1).trans (((dat1 (V6 m ρ) c).arrAt_in 1 rfl _).trans (A_eq1 (V6 m ρ) c 1))

set_option maxHeartbeats 1000000 in
/-- No operation of the stretch between boundaries 7 and 8 writes one of the thirteen. -/
theorem step8 : ∀ b ∈ kept, W8 m ρ c (Proc.devRef .tc b) = W7 m ρ c (Proc.devRef .tc b) := by
  intro b hb
  simp only [kept, List.mem_cons, List.not_mem_nil, or_false] at hb
  rcases hb with rfl | rfl | rfl | rfl | rfl | rfl | rfl | rfl | rfl | rfl | rfl | rfl | rfl <;> not_written hostOps2

set_option maxHeartbeats 1000000 in
/-- No operation of the stretch between boundaries 8 and 9 writes one of the thirteen. -/
theorem step9 : ∀ b ∈ kept, W9 m ρ c (Proc.devRef .tc b) = W8 m ρ c (Proc.devRef .tc b) := by
  intro b hb
  simp only [kept, List.mem_cons, List.not_mem_nil, or_false] at hb
  rcases hb with rfl | rfl | rfl | rfl | rfl | rfl | rfl | rfl | rfl | rfl | rfl | rfl | rfl <;> not_written hostOps2_1

/-- Pallas_call 2 changes the contents of its output array only; none of the thirteen is that array (two of them may be
    its inputs, which it leaves as it found them). -/
theorem step10 : ∀ b ∈ kept, W10 m ρ c (Proc.devRef .tc b) = W9 m ρ c (Proc.devRef .tc b) := by
  intro b hb
  simp only [kept, List.mem_cons, List.not_mem_nil, or_false] at hb
  rcases hb with rfl | rfl | rfl | rfl | rfl | rfl | rfl | rfl | rfl | rfl | rfl | rfl | rfl <;>
    first
    | exact W10_of_ne m ρ c _ (by decide)
    | exact (W10_arr m ρ c 0).trans (((dat2 (V9 m ρ) c).arrAt_in 0 rfl _).trans (A_eq2 (V9 m ρ) c 0))
    | exact (W10_arr m ρ c 1).trans (((dat2 (V9 m ρ) c).arrAt_in 1 rfl _).trans (A_eq2 (V9 m ρ) c 1))

set_option maxHeartbeats 1000000 in
/-- No operation of the stretch between boundaries 10 and 11 writes one of the thirteen. -/
theorem step11 : ∀ b ∈ kept, W11 m ρ c (Proc.devRef .tc b) = W10 m ρ c (Proc.devRef .tc b) := by
  intro b hb
  simp only [kept, List.mem_cons, List.not_mem_nil, or_false] at hb
  rcases hb with rfl | rfl | rfl | rfl | rfl | rfl | rfl | rfl | rfl | rfl | rfl | rfl | rfl <;> not_written hostOps3

/-- Pallas_call 3 changes the contents of its output array only; none of the thirteen is that array (two of them may be
    its inputs, which it leaves as it found them). -/
theorem step12 : ∀ b ∈ kept, W12 m ρ c (Proc.devRef .tc b) = W11 m ρ c (Proc.devRef .tc b) := by
  intro b hb
  simp only [kept, List.mem_cons, List.not_mem_nil, or_false] at hb
  rcases hb with rfl | rfl | rfl | rfl | rfl | rfl | rfl | rfl | rfl | rfl | rfl | rfl | rfl <;>
    first
    | exact W12_of_ne m ρ c _ (by decide)
    | exact (W12_arr m ρ c 0).trans (((dat3 (V11 m ρ) c).arrAt_in 0 rfl _).trans (A_eq3 (V11 m ρ) c 0))
    | exact (W12_arr m ρ c 1).trans (((dat3 (V11 m ρ) c).arrAt_in 1 rfl _).trans (A_eq3 (V11 m ρ) c 1))

/-! Composed: each of the thirteen, at each later region's entry and exit, is what the first pallas_call found. -/

theorem keep4 (b : Ref sig .tc) (hb : b ∈ kept) : W4 m ρ c (Proc.devRef .tc b) = W3 m ρ c (Proc.devRef .tc b) := step4 m ρ c b hb
theorem keep6 (b : Ref sig .tc) (hb : b ∈ kept) : W6 m ρ c (Proc.devRef .tc b) = W3 m ρ c (Proc.devRef .tc b) :=
  (step6 m ρ c b hb).trans ((step5 m ρ c b hb).trans (keep4 m ρ c b hb))
theorem keep7 (b : Ref sig .tc) (hb : b ∈ kept) : W7 m ρ c (Proc.devRef .tc b) = W3 m ρ c (Proc.devRef .tc b) :=
  (step7 m ρ c b hb).trans (keep6 m ρ c b hb)
theorem keep9 (b : Ref sig .tc) (hb : b ∈ kept) : W9 m ρ c (Proc.devRef .tc b) = W3 m ρ c (Proc.devRef .tc b) :=
  (step9 m ρ c b hb).trans ((step8 m ρ c b hb).trans (keep7 m ρ c b hb))
theorem keep10 (b : Ref sig .tc) (hb : b ∈ kept) : W10 m ρ c (Proc.devRef .tc b) = W3 m ρ c (Proc.devRef .tc b) :=
  (step10 m ρ c b hb).trans (keep9 m ρ c b hb)
theorem keep11 (b : Ref sig .tc) (hb : b ∈ kept) : W11 m ρ c (Proc.devRef .tc b) = W3 m ρ c (Proc.devRef .tc b) :=
  (step11 m ρ c b hb).trans (keep10 m ρ c b hb)
theorem keep12 (b : Ref sig .tc) (hb : b ∈ kept) : W12 m ρ c (Proc.devRef .tc b) = W3 m ρ c (Proc.devRef .tc b) :=
  (step12 m ρ c b hb).trans (keep11 m ρ c b hb)

end Cert.KernelIdeal.Kept

end
-- ==== Proof.LibMatmulPlain.lean ====
/-
  A plain matrix product into a zero accumulator, read at an index, at the ideal values.

  For an m×k matrix A and a k×n matrix B the product into the zero accumulator has, at row a and column b, the entry
  ∑ c, A(a, c) · B(c, b): the accumulator contributes the extended real 0, and the contraction index of the plain
  dimension numbers is the one coordinate c. The host's product of the same two matrices is the same sum, so the
  statement follows from the library's reading of the host product.
-/
import Idealize.ShloMosaic.PureOps.Ideal.Laws
import Idealize.ShloMosaic.Lib.ValueIdx
import Idealize.ShloMosaic.Lib.StackMember

namespace Cert.LibMatmulPlain

open Idealize.ShloMosaic Idealize.ShloMosaic.ValueIdx

/-- A plain m×k by k×n product into the zero accumulator reads, at (a, b), the sum over the contracted coordinate c of
    A(a, c) · B(c, b). At the ideal values, whatever the formats of the two operands. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [← StackMember.dotGeneral_plain_apply prec A B a b]
  show FloatOps.matmul _ prec A B _ (ix2 a b) = FloatOps.dotGeneral _ prec _ A B (ix2 a b)
  rw [Ideal.matmul_constant_zero_apply, Ideal.dotGeneral_apply]

end Cert.LibMatmulPlain
-- ==== Proof.LibDenseProduct.lean ====
/-
  The dense product as one function of its two matrices, and the two spellings of it the programs use.

  For an m×k matrix A and a k×n matrix B, mm A B has at row a and column b the entry ∑ c, A(a, c) · B(c, b), over the
  extended reals. The host's plain dot_general of A and B is this array, and so is the kernel's matrix unit applied
  to A and B with the zero accumulator; the number format of either operand plays no part at the ideal values. A block of
  rows of mm A B is mm of the same rows of A with B: row a of the product reads row a of A only.
-/
import proofs.«126490_j50148038148378_1_alg».proof.Proof.LibMatmulPlain

noncomputable section

namespace Cert.LibDenseProduct

open Idealize.ShloMosaic Idealize.ShloMosaic.ValueIdx

variable {m k n : Nat} {φ₁ φ₂ : FTy}

/-- The product of an m×k and a k×n matrix, entry by entry. -/
def mm (A : FVec Ideal ⟨2, ![m, k]⟩ φ₁) (B : FVec Ideal ⟨2, ![k, n]⟩ φ₂) : FVec Ideal ⟨2, ![m, n]⟩ .f32 :=
  fun i => ∑ c : Fin k, A (ix2 (i 0) c) * B (ix2 c (i 1))

theorem mm_apply (A : FVec Ideal ⟨2, ![m, k]⟩ φ₁) (B : FVec Ideal ⟨2, ![k, n]⟩ φ₂) (a : Fin m) (b : Fin n) :
    mm A B (ix2 a b) = ∑ c : Fin k, A (ix2 a c) * B (ix2 c b) := rfl

/-- The host's plain product is `mm`. -/
theorem dotGeneral_plain_eq (prec : Option ContractPrecision) (A : FVec Ideal ⟨2, ![m, k]⟩ φ₁) (B : FVec Ideal ⟨2, ![k, n]⟩ φ₂) :
    Host.dotGeneral (DotDims.plain m k n) prec A B = mm A B := by
  funext i
  rw [eq_ix2 i]
  exact StackMember.dotGeneral_plain_apply prec A B _ _

/-- The matrix unit's plain product into the zero accumulator is `mm`. -/
theorem matmul_plain_zero_eq (prec : Option ContractPrecision) (A : FVec Ideal ⟨2, ![m, k]⟩ φ₁) (B : FVec Ideal ⟨2, ![k, n]⟩ φ₂) :
    matmul (DotDims.plain m k n) prec A B (constant (F := Ideal) ⟨2, ![m, n]⟩ .f32 0x00000000#32) = mm A B := by
  funext i
  rw [eq_ix2 i]
  exact Cert.LibMatmulPlain.matmul_plain_zero_apply prec A B _ _

/-- Rows of a product: if a small left factor `x0` holds, in its row `j 0`, row `i 0` of the large one `X`, then the small
    product at `j` is the large product at `i` whenever the two indices name the same column. -/
theorem mm_rows {M : Nat} (X : FVec Ideal ⟨2, ![M, k]⟩ φ₁) (W : FVec Ideal ⟨2, ![k, n]⟩ φ₂)
    (x0 : FVec Ideal ⟨2, ![m, k]⟩ φ₁) (j : (⟨2, ![m, n]⟩ : Shape).Idx) (i : (⟨2, ![M, n]⟩ : Shape).Idx)
    (hx : ∀ c : Fin k, x0 (ix2 (j 0) c) = X (ix2 (i 0) c)) (h1 : (j 1 : Fin n) = i 1) : mm x0 W j = mm X W i := by
  unfold mm
  refine Finset.sum_congr rfl fun c _ => ?_
  rw [hx c]
  exact congrArg (fun b : Fin n => X (ix2 (i 0) c) * W (ix2 c b)) h1

end Cert.LibDenseProduct

end
-- ==== Proof.Rows0.lean ====
/-
  Region 0 of the kernel's @main: the array the pallas_call leaves.

  The grid has 25 points; point t loads rows 2000·t … 2000·t + 1999 of the left array (all 512 columns), the whole
  512×256 right array, and stores their product as rows 2000·t … 2000·t + 1999 of the output. Row r of a product reads
  row r of the left factor only, so each stored block is the same rows of the product of the two WHOLE arrays; the 25
  blocks tile the 50000 rows, so the output array ends as that product. At the ideal values the change of number format
  before the matrix unit is the identity and the accumulator starts at 0.
-/
import proofs.«126490_j50148038148378_1_alg».proof.Proof.Gen.KernelIdeal.Frame
import proofs.«126490_j50148038148378_1_alg».proof.Proof.LibDenseProduct
import Idealize.ShloMosaic.Lib.Pipeline.Value
import Idealize.ShloMosaic.Lib.ValueIdx

set_option maxRecDepth 16384

noncomputable section

namespace Cert.KernelIdeal.Rows0

open Idealize.ShloMosaic Idealize.ShloMosaic.TcCoe Idealize.ShloMosaic.ValueIdx Idealize.SL.Sem
open Idealize.ShloMosaic.Pipeline (Dat)
open Cert.KernelIdeal Cert.KernelIdeal.Gen Cert.LibDenseProduct

-- the buffer contents when the region is entered: a parameter of every statement below
variable (V : (c : Dev nD) → (b : Ref sig .tc) → Buf (Elt Ideal) ((c : Thread nD τ).loc b))

theorem hz : (![0, 0] : Fin 2 → Nat) = fun _ => 0 := funext fun a => by fin_cases a <;> rfl

/-- The body's stored value is the product of its two loaded blocks. -/
theorem pay_eq (x0 : Vec Ideal S2000x512 .f32) (x1 : Vec Ideal S512x256 .f32) :
    k0_pay1 (F := Ideal) x0 x1 = mm (m := 2000) (k := 512) (n := 256) (φ₁ := .f32) (φ₂ := .f32) x0 x1 := by
  unfold k0_pay1
  exact matmul_plain_zero_eq (m := 2000) (k := 512) (n := 256) none _ _

/-- The printed index maps over the grid: the left and the output block sit at row block t, column block 0; the right
    block is the whole array. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- An entry of the left block at point t is the entry of the left array in row 2000·t + p. -/
theorem left_block (c : Dev nD) (t : Fin cfg0.N) (p : Fin 2000) (k : Fin 512) (h : t.val * 2000 + p.val < 50000) :
    iblk0 V c 0 t (ix2 p k) = V c main_arg0 (ix2 (⟨t.val * 2000 + p.val, h⟩ : Fin 50000) k) := by
  obtain ⟨e0, e1, -, -, -, -⟩ := idx_facts t
  show V c main_arg0 (((cfg0.win 0).blk t).view.emb (ix2 p k)) = _
  refine congrArg (V c main_arg0) ?_
  funext a; apply Fin.ext
  match a with
  | ⟨0, _⟩ => show win0_0.index t (0 : Fin 2) * 2000 + 1 * p.val = t.val * 2000 + p.val; omega
  | ⟨1, _⟩ => show win0_0.index t (1 : Fin 2) * 512 + 1 * k.val = k.val; omega

/-- The right block at any point is the right array. -/
theorem right_block (c : Dev nD) (t : Fin cfg0.N) (k : Fin 512) (q : Fin 256) :
    iblk0 V c 1 t (ix2 k q) = V c main_arg1 (ix2 k q) := by
  obtain ⟨-, -, e2, e3, -, -⟩ := idx_facts t
  show V c main_arg1 (((cfg0.win 1).blk t).view.emb (ix2 k q)) = _
  refine congrArg (V c main_arg1) ?_
  funext a; apply Fin.ext
  match a with
  | ⟨0, _⟩ => show win0_1.index t (0 : Fin 2) * 512 + 1 * k.val = k.val; omega
  | ⟨1, _⟩ => show win0_1.index t (1 : Fin 2) * 256 + 1 * q.val = q.val; omega

/-- What point t writes back is block t of the product of the two arrays as the region finds them. -/
theorem flushed_eq (c : Dev nD) (t : Fin cfg0.N) :
    (dat0 V c).flushed 2 t = ((cfg0.win 2).blk t).view.read (Elt Ideal)
      (mm (m := 50000) (k := 512) (n := 256) (φ₁ := .f32) (φ₂ := .f32) (V c main_arg0) (V c main_arg1)) := by
  show (cfg0.win 2).cut (grid0.coords t) ((dat0 V c).after 2 t) = _
  rw [after0_2]
  unfold out0_2
  rw [View.canon_unit_zero hz]
  simp only [View.ld_unit_zero (S := S2000x512) hz, View.ld_unit_zero (S := S512x256) hz]
  rw [pay_eq]
  obtain ⟨-, -, -, -, e4, e5⟩ := idx_facts t
  have ht : t.val < 25 := t.isLt
  funext j
  obtain ⟨p, q, rfl⟩ : ∃ (p : Fin 2000) (q : Fin 256), j = ix2 p q := ⟨j 0, j 1, eq_ix2 j⟩
  have hp : t.val * 2000 + p.val < 50000 := by have := p.isLt; omega
  have he : ((cfg0.win 2).blk t).view.emb (ix2 p q) = ix2 (⟨t.val * 2000 + p.val, hp⟩ : Fin 50000) q := by
    funext a; apply Fin.ext
    match a with
    | ⟨0, _⟩ => show win0_2.index t (0 : Fin 2) * 2000 + 1 * p.val = t.val * 2000 + p.val; omega
    | ⟨1, _⟩ => show win0_2.index t (1 : Fin 2) * 256 + 1 * q.val = q.val; omega
  show mm (iblk0 V c 0 t) (iblk0 V c 1 t) (ix2 p q) = mm (V c main_arg0) (V c main_arg1) (((cfg0.win 2).blk t).view.emb (ix2 p q))
  rw [he, mm_apply, mm_apply]
  refine Finset.sum_congr rfl fun k _ => ?_
  rw [left_block V c t p k hp, right_block V c t k q]

/-- An index of the output array is in point t's block iff each coordinate is in the block's range on its axis. -/
theorem mem_blk (t : Fin cfg0.N) (i : S50000x256.Idx) :
    i ∈ ((cfg0.win 2).blk t).view.set ↔ ∀ a : Fin 2, win0_2.index t a * S2000x256.size a ≤ (i a).val ∧ (i a).val < win0_2.index t a * S2000x256.size a + S2000x256.size a := by
  show i ∈ ((View.whole main_v30).slice (win0_2.rect t)).set ↔ _
  rw [View.set_slice_whole, Rect.mem_set_unit]
  exact Iff.rfl

/-- Every index of the output array is in the block of the point its row falls in. -/
theorem cover (i : S50000x256.Idx) : ∃ t : Fin cfg0.N, (cfg0.win 2).flush t = true ∧ i ∈ ((cfg0.win 2).blk t).view.set := by
  have hi0 : (i 0).val < 50000 := (i 0).isLt
  have hi1 : (i 1).val < 256 := (i 1).isLt
  let t : Fin cfg0.N := ⟨(i 0).val / 2000, by show (i 0).val / 2000 < 25; omega⟩
  obtain ⟨-, -, -, -, e4, e5⟩ := idx_facts t
  have e4' : win0_2.index t (0 : Fin 2) = (i 0).val / 2000 := e4
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 256 ≤ (i 1).val ∧ (i 1).val < win0_2.index t (1 : Fin 2) * 256 + 256; omega

/-- The output array after the region: the product of the two input arrays as the region finds them. -/
theorem product (c : Dev nD) :
    (dat0 V c).arrAt 2 cfg0.N = mm (m := 50000) (k := 512) (n := 256) (φ₁ := .f32) (φ₂ := .f32) (V c main_arg0) (V c main_arg1) :=
  (dat0 V c).arrAt_eq_of_cover 2 _ (fun t _ => flushed_eq V c t) cover

end Cert.KernelIdeal.Rows0

end
-- ==== Proof.Layer1.lean ====
/-
  The first graph layer of the kernel's @main.

  Pallas_call 0 leaves x·W1 in %30 (the product of the two arrays it finds, which are the arguments): the reference's
  stage %30, a dot_general of the same two arrays, is that product too. The host operations that follow — gather the
  rows at the source list, scale each by its edge weight, scatter-add into the target rows from zero, add the bias row,
  take the maximum with zero — are the reference's operations %31 … %47 one for one, applied to the same arrays; so %47
  is the reference's stage %47 of the arguments.
-/
import proofs.«126490_j50148038148378_1_alg».proof.Proof.Entry0
import proofs.«126490_j50148038148378_1_alg».proof.Proof.Kept
import proofs.«126490_j50148038148378_1_alg».proof.Proof.Rows0
import Idealize.ShloMosaic.Lib.StableHlo.Run

set_option maxRecDepth 16384

noncomputable section

namespace Cert.KernelIdeal.Layer1

open Idealize.ShloMosaic Idealize.ShloMosaic.TcCoe Idealize.SL.Sem Idealize.ShloMosaic.StableHlo
open Cert.KernelIdeal Cert.KernelIdeal.Gen Cert.KernelIdeal.Kept Cert.KernelIdeal.Entry0 Cert.LibDenseProduct
open Cert.ReferenceIdeal.Read (val_main_v3 val_main_v6 val_main_v29 val_main_v30 val_main_v47 val_main_v48 val_main_v65 val_main_v66
  val_main_v82 val_main_v83 val_main_v99)

variable (m : (ℓ : Loc nD τ sig) → Buf (Elt Ideal) ℓ) (ρ : Dev nD → PrngReg) (c : Dev nD)

/-- The edge lists and the edge weights at this boundary. -/
theorem W4_v3 : W4 m ρ c (Proc.devRef .tc main_v3) = val_main_v3 (F := Ideal) (m ((c : Thread nD τ).loc main_arg9)) :=
  (keep4 m ρ c main_v3 (by decide)).trans (W3_v3 m ρ c)
theorem W4_v6 : W4 m ρ c (Proc.devRef .tc main_v6) = val_main_v6 (F := Ideal) (m ((c : Thread nD τ).loc main_arg9)) :=
  (keep4 m ρ c main_v6 (by decide)).trans (W3_v6 m ρ c)
theorem W4_v29 : W4 m ρ c (Proc.devRef .tc main_v29) = val_main_v29 (F := Ideal) (m ((c : Thread nD τ).loc main_arg9)) :=
  (keep4 m ρ c main_v29 (by decide)).trans (W3_v29 m ρ c)

theorem W4_arg2 : W4 m ρ c (Proc.devRef .tc main_arg2) = m ((c : Thread nD τ).loc main_arg2) :=
  (keep4 m ρ c main_arg2 (by decide)).trans (W3_arg2 m ρ c)

/-- Pallas_call 0's output is the reference's product stage: both are the dense product of the same two arrays. -/
theorem W4_v30 : W4 m ρ c (Proc.devRef .tc main_v30) = val_main_v30 (F := Ideal) (m ((c : Thread nD τ).loc main_arg0)) (m ((c : Thread nD τ).loc main_arg1)) := by
  refine (W4_arr m ρ c 2).trans ((Rows0.product (V3 m ρ) c).trans ?_)
  show mm (m := 50000) (k := 512) (n := 256) (φ₁ := .f32) (φ₂ := .f32) (W3 m ρ c (Proc.devRef .tc main_arg0)) (W3 m ρ c (Proc.devRef .tc main_arg1)) = _
  rw [W3_arg0 m ρ c, W3_arg1 m ρ c]
  exact (dotGeneral_plain_eq (m := 50000) (k := 512) (n := 256) none _ _).symm

set_option maxHeartbeats 2000000 in
/-- Gather the rows of the product at the source list, scale by the edge weights, scatter-add into the target rows from
    zero, add the bias row: the reference's operations, one for one, on the same arrays. -/
theorem W5_v46 : W5 m ρ c (Proc.devRef .tc main_v46) = Cert.ReferenceIdeal.Read.val_main_v46 (F := Ideal) (m ((c : Thread nD τ).loc main_arg0)) (m ((c : Thread nD τ).loc main_arg1)) (m ((c : Thread nD τ).loc main_arg2)) (m ((c : Thread nD τ).loc main_arg9)) := by
  have eh := W4_v30 m ρ c
  have e3 := W4_v3 m ρ c
  have e6 := W4_v6 m ρ c
  have e29 := W4_v29 m ρ c
  have eb := W4_arg2 m ρ c
  show StableHlo.after hostOps1 (W4 m ρ c) (Proc.devRef .tc main_v46) = _
  generalize W4 m ρ c = X at eh e3 e6 e29 eb ⊢
  after_results
  rw [eh, e3, e6, e29, eb]
  rfl

/-- The three operations of `relu`, over any contents: the maximum with the zero array. -/
theorem relu_call1 (X : Valuation τ sig (Elt Ideal)) :
    StableHlo.after hostOps1_1 X (Proc.devRef .tc main_v47)
      = maximumf (X (Proc.devRef .tc main_v46))
          (broadcastInDim S50000x256 ![] bcast_S_S50000x256 (constant (F := Ideal) S_ .f32 0x00000000#32)) := by
  after_results
  rfl

/-- The first layer's output, as the second pallas_call finds it. -/
theorem W6_v47 : W6 m ρ c (Proc.devRef .tc main_v47) = val_main_v47 (F := Ideal) (m ((c : Thread nD τ).loc main_arg0)) (m ((c : Thread nD τ).loc main_arg1)) (m ((c : Thread nD τ).loc main_arg2)) (m ((c : Thread nD τ).loc main_arg9)) := by
  show StableHlo.after hostOps1_1 (W5 m ρ c) (Proc.devRef .tc main_v47) = _
  rw [relu_call1, W5_v46 m ρ c]
  rfl

end Cert.KernelIdeal.Layer1

end
-- ==== Proof.Rows1.lean ====
/-
  Region 1 of the kernel's @main: the array the pallas_call leaves.

  The grid has 25 points; point t loads rows 2000·t … 2000·t + 1999 of the left array (all 256 columns), the whole
  256×256 right array, and stores their product as rows 2000·t … 2000·t + 1999 of the output. Row r of a product reads
  row r of the left factor only, so each stored block is the same rows of the product of the two WHOLE arrays; the 25
  blocks tile the 50000 rows, so the output array ends as that product. At the ideal values the change of number format
  before the matrix unit is the identity, the shape cast in front of it is to the same shape, and the accumulator starts at 0.
-/
import proofs.«126490_j50148038148378_1_alg».proof.Proof.Gen.KernelIdeal.Frame
import proofs.«126490_j50148038148378_1_alg».proof.Proof.LibDenseProduct
import Idealize.ShloMosaic.Lib.Pipeline.Value
import Idealize.ShloMosaic.Lib.ValueIdx

set_option maxRecDepth 16384

noncomputable section

namespace Cert.KernelIdeal.Rows1

open Idealize.ShloMosaic Idealize.ShloMosaic.TcCoe Idealize.ShloMosaic.ValueIdx Idealize.SL.Sem
open Idealize.ShloMosaic.Pipeline (Dat)
open Cert.KernelIdeal Cert.KernelIdeal.Gen Cert.LibDenseProduct

-- the buffer contents when the region is entered: a parameter of every statement below
variable (V : (c : Dev nD) → (b : Ref sig .tc) → Buf (Elt Ideal) ((c : Thread nD τ).loc b))

theorem hz : (![0, 0] : Fin 2 → Nat) = fun _ => 0 := funext fun a => by fin_cases a <;> rfl

/-- The body's stored value is the product of its two loaded blocks. -/
theorem pay_eq (x0 : Vec Ideal S2000x256 .f32) (x1 : Vec Ideal S256x256 .f32) :
    k1_pay1 (F := Ideal) x0 x1 = mm (m := 2000) (k := 256) (n := 256) (φ₁ := .f32) (φ₂ := .f32) x0 x1 := by
  unfold k1_pay1
  have hs : shapeCast S2000x256 x0 shapeCasts_S2000x256_S2000x256 = x0 := shapeCast_self x0 _
  exact (matmul_plain_zero_eq (m := 2000) (k := 256) (n := 256) none (shapeCast S2000x256 x0 shapeCasts_S2000x256_S2000x256) x1).trans (by rw [hs]; rfl)

/-- The printed index maps over the grid: the left and the output block sit at row block t, column block 0; the right
    block is the whole array. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- An entry of the left block at point t is the entry of the left array in row 2000·t + p. -/
theorem left_block (c : Dev nD) (t : Fin cfg1.N) (p : Fin 2000) (k : Fin 256) (h : t.val * 2000 + p.val < 50000) :
    iblk1 V c 0 t (ix2 p k) = V c main_v47 (ix2 (⟨t.val * 2000 + p.val, h⟩ : Fin 50000) k) := by
  obtain ⟨e0, e1, -, -, -, -⟩ := idx_facts t
  show V c main_v47 (((cfg1.win 0).blk t).view.emb (ix2 p k)) = _
  refine congrArg (V c main_v47) ?_
  funext a; apply Fin.ext
  match a with
  | ⟨0, _⟩ => show win1_0.index t (0 : Fin 2) * 2000 + 1 * p.val = t.val * 2000 + p.val; omega
  | ⟨1, _⟩ => show win1_0.index t (1 : Fin 2) * 256 + 1 * k.val = k.val; omega

/-- The right block at any point is the right array. -/
theorem right_block (c : Dev nD) (t : Fin cfg1.N) (k : Fin 256) (q : Fin 256) :
    iblk1 V c 1 t (ix2 k q) = V c main_arg3 (ix2 k q) := by
  obtain ⟨-, -, e2, e3, -, -⟩ := idx_facts t
  show V c main_arg3 (((cfg1.win 1).blk t).view.emb (ix2 k q)) = _
  refine congrArg (V c main_arg3) ?_
  funext a; apply Fin.ext
  match a with
  | ⟨0, _⟩ => show win1_1.index t (0 : Fin 2) * 256 + 1 * k.val = k.val; omega
  | ⟨1, _⟩ => show win1_1.index t (1 : Fin 2) * 256 + 1 * q.val = q.val; omega

/-- What point t writes back is block t of the product of the two arrays as the region finds them. -/
theorem flushed_eq (c : Dev nD) (t : Fin cfg1.N) :
    (dat1 V c).flushed 2 t = ((cfg1.win 2).blk t).view.read (Elt Ideal)
      (mm (m := 50000) (k := 256) (n := 256) (φ₁ := .f32) (φ₂ := .f32) (V c main_v47) (V c main_arg3)) := by
  show (cfg1.win 2).cut (grid1.coords t) ((dat1 V c).after 2 t) = _
  rw [after1_2]
  unfold out1_2
  rw [View.canon_unit_zero hz]
  simp only [View.ld_unit_zero (S := S2000x256) hz, View.ld_unit_zero (S := S256x256) hz]
  rw [pay_eq]
  obtain ⟨-, -, -, -, e4, e5⟩ := idx_facts t
  have ht : t.val < 25 := t.isLt
  funext j
  obtain ⟨p, q, rfl⟩ : ∃ (p : Fin 2000) (q : Fin 256), j = ix2 p q := ⟨j 0, j 1, eq_ix2 j⟩
  have hp : t.val * 2000 + p.val < 50000 := by have := p.isLt; omega
  have he : ((cfg1.win 2).blk t).view.emb (ix2 p q) = ix2 (⟨t.val * 2000 + p.val, hp⟩ : Fin 50000) q := by
    funext a; apply Fin.ext
    match a with
    | ⟨0, _⟩ => show win1_2.index t (0 : Fin 2) * 2000 + 1 * p.val = t.val * 2000 + p.val; omega
    | ⟨1, _⟩ => show win1_2.index t (1 : Fin 2) * 256 + 1 * q.val = q.val; omega
  show mm (iblk1 V c 0 t) (iblk1 V c 1 t) (ix2 p q) = mm (V c main_v47) (V c main_arg3) (((cfg1.win 2).blk t).view.emb (ix2 p q))
  rw [he, mm_apply, mm_apply]
  refine Finset.sum_congr rfl fun k _ => ?_
  rw [left_block V c t p k hp, right_block V c t k q]

/-- An index of the output array is in point t's block iff each coordinate is in the block's range on its axis. -/
theorem mem_blk (t : Fin cfg1.N) (i : S50000x256.Idx) :
    i ∈ ((cfg1.win 2).blk t).view.set ↔ ∀ a : Fin 2, win1_2.index t a * S2000x256.size a ≤ (i a).val ∧ (i a).val < win1_2.index t a * S2000x256.size a + S2000x256.size a := by
  show i ∈ ((View.whole main_v48).slice (win1_2.rect t)).set ↔ _
  rw [View.set_slice_whole, Rect.mem_set_unit]
  exact Iff.rfl

/-- Every index of the output array is in the block of the point its row falls in. -/
theorem cover (i : S50000x256.Idx) : ∃ t : Fin cfg1.N, (cfg1.win 2).flush t = true ∧ i ∈ ((cfg1.win 2).blk t).view.set := by
  have hi0 : (i 0).val < 50000 := (i 0).isLt
  have hi1 : (i 1).val < 256 := (i 1).isLt
  let t : Fin cfg1.N := ⟨(i 0).val / 2000, by show (i 0).val / 2000 < 25; omega⟩
  obtain ⟨-, -, -, -, e4, e5⟩ := idx_facts t
  have e4' : win1_2.index t (0 : Fin 2) = (i 0).val / 2000 := e4
  refine ⟨t, flush1_2 t, ?_⟩
  rw [mem_blk]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 256 ≤ (i 1).val ∧ (i 1).val < win1_2.index t (1 : Fin 2) * 256 + 256; omega

/-- The output array after the region: the product of the two input arrays as the region finds them. -/
theorem product (c : Dev nD) :
    (dat1 V c).arrAt 2 cfg1.N = mm (m := 50000) (k := 256) (n := 256) (φ₁ := .f32) (φ₂ := .f32) (V c main_v47) (V c main_arg3) :=
  (dat1 V c).arrAt_eq_of_cover 2 _ (fun t _ => flushed_eq V c t) cover

end Cert.KernelIdeal.Rows1

end
-- ==== Proof.Layer2.lean ====
/-
  The second graph layer of the kernel's @main.

  Pallas_call 1 finds the first layer's output %47 and the second weight matrix, and leaves their product in %48; the
  reference's stage %48 is the dot_general of the same two arrays. The host operations %49 … %65 are again the
  reference's, one for one: gather at the source list, scale by the edge weights, scatter-add into the target rows, add
  the second bias row, maximum with zero. So %65 is the reference's stage %65 of the arguments.
-/
import proofs.«126490_j50148038148378_1_alg».proof.Proof.Layer1
import proofs.«126490_j50148038148378_1_alg».proof.Proof.Rows1
import Idealize.ShloMosaic.Lib.StableHlo.Run

set_option maxRecDepth 16384

noncomputable section

namespace Cert.KernelIdeal.Layer2

open Idealize.ShloMosaic Idealize.ShloMosaic.TcCoe Idealize.SL.Sem Idealize.ShloMosaic.StableHlo
open Cert.KernelIdeal Cert.KernelIdeal.Gen Cert.KernelIdeal.Kept Cert.KernelIdeal.Entry0 Cert.KernelIdeal.Layer1 Cert.LibDenseProduct
open Cert.ReferenceIdeal.Read (val_main_v3 val_main_v6 val_main_v29 val_main_v30 val_main_v47 val_main_v48 val_main_v65 val_main_v66
  val_main_v82 val_main_v83 val_main_v99)

variable (m : (ℓ : Loc nD τ sig) → Buf (Elt Ideal) ℓ) (ρ : Dev nD → PrngReg) (c : Dev nD)

/-- The edge lists and the edge weights at this boundary. -/
theorem W7_v3 : W7 m ρ c (Proc.devRef .tc main_v3) = val_main_v3 (F := Ideal) (m ((c : Thread nD τ).loc main_arg9)) :=
  (keep7 m ρ c main_v3 (by decide)).trans (W3_v3 m ρ c)
theorem W7_v6 : W7 m ρ c (Proc.devRef .tc main_v6) = val_main_v6 (F := Ideal) (m ((c : Thread nD τ).loc main_arg9)) :=
  (keep7 m ρ c main_v6 (by decide)).trans (W3_v6 m ρ c)
theorem W7_v29 : W7 m ρ c (Proc.devRef .tc main_v29) = val_main_v29 (F := Ideal) (m ((c : Thread nD τ).loc main_arg9)) :=
  (keep7 m ρ c main_v29 (by decide)).trans (W3_v29 m ρ c)

theorem W7_arg4 : W7 m ρ c (Proc.devRef .tc main_arg4) = m ((c : Thread nD τ).loc main_arg4) :=
  (keep7 m ρ c main_arg4 (by decide)).trans (W3_arg4 m ρ c)

theorem W6_arg3 : W6 m ρ c (Proc.devRef .tc main_arg3) = m ((c : Thread nD τ).loc main_arg3) :=
  (keep6 m ρ c main_arg3 (by decide)).trans (W3_arg3 m ρ c)

/-- Pallas_call 1's output is the reference's product stage: both are the dense product of the same two arrays. -/
theorem W7_v48 : W7 m ρ c (Proc.devRef .tc main_v48) = val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg9)) := by
  refine (W7_arr m ρ c 2).trans ((Rows1.product (V6 m ρ) c).trans ?_)
  show mm (m := 50000) (k := 256) (n := 256) (φ₁ := .f32) (φ₂ := .f32) (W6 m ρ c (Proc.devRef .tc main_v47)) (W6 m ρ c (Proc.devRef .tc main_arg3)) = _
  rw [W6_v47 m ρ c, W6_arg3 m ρ c]
  exact (dotGeneral_plain_eq (m := 50000) (k := 256) (n := 256) none _ _).symm

set_option maxHeartbeats 2000000 in
/-- Gather the rows of the product at the source list, scale by the edge weights, scatter-add into the target rows from
    zero, add the bias row: the reference's operations, one for one, on the same arrays. -/
theorem W8_v64 : W8 m ρ c (Proc.devRef .tc main_v64) = Cert.ReferenceIdeal.Read.val_main_v64 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg9)) := by
  have eh := W7_v48 m ρ c
  have e3 := W7_v3 m ρ c
  have e6 := W7_v6 m ρ c
  have e29 := W7_v29 m ρ c
  have eb := W7_arg4 m ρ c
  show StableHlo.after hostOps2 (W7 m ρ c) (Proc.devRef .tc main_v64) = _
  generalize W7 m ρ c = X at eh e3 e6 e29 eb ⊢
  after_results
  rw [eh, e3, e6, e29, eb]
  rfl

/-- The three operations of `relu`, over any contents: the maximum with the zero array. -/
theorem relu_call2 (X : Valuation τ sig (Elt Ideal)) :
    StableHlo.after hostOps2_1 X (Proc.devRef .tc main_v65)
      = maximumf (X (Proc.devRef .tc main_v64))
          (broadcastInDim S50000x256 ![] bcast_S_S50000x256 (constant (F := Ideal) S_ .f32 0x00000000#32)) := by
  after_results
  rfl

/-- The second layer's output, as the last two pallas_calls find it. -/
theorem W9_v65 : W9 m ρ c (Proc.devRef .tc main_v65) = val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg9)) := by
  show StableHlo.after hostOps2_1 (W8 m ρ c) (Proc.devRef .tc main_v65) = _
  rw [relu_call2, W8_v64 m ρ c]
  rfl

end Cert.KernelIdeal.Layer2

end
-- ==== Proof.Rows2.lean ====
/-
  Region 2 of the kernel's @main: the array the pallas_call leaves.

  The grid has 25 points; point t loads rows 2000·t … 2000·t + 1999 of the left array (all 256 columns), the whole
  256×128 right array, and stores their product as rows 2000·t … 2000·t + 1999 of the output. Row r of a product reads
  row r of the left factor only, so each stored block is the same rows of the product of the two WHOLE arrays; the 25
  blocks tile the 50000 rows, so the output array ends as that product. At the ideal values the change of number format
  before the matrix unit is the identity, the shape cast in front of it is to the same shape, and the accumulator starts at 0.
-/
import proofs.«126490_j50148038148378_1_alg».proof.Proof.Gen.KernelIdeal.Frame
import proofs.«126490_j50148038148378_1_alg».proof.Proof.LibDenseProduct
import Idealize.ShloMosaic.Lib.Pipeline.Value
import Idealize.ShloMosaic.Lib.ValueIdx

set_option maxRecDepth 16384

noncomputable section

namespace Cert.KernelIdeal.Rows2

open Idealize.ShloMosaic Idealize.ShloMosaic.TcCoe Idealize.ShloMosaic.ValueIdx Idealize.SL.Sem
open Idealize.ShloMosaic.Pipeline (Dat)
open Cert.KernelIdeal Cert.KernelIdeal.Gen Cert.LibDenseProduct

-- the buffer contents when the region is entered: a parameter of every statement below
variable (V : (c : Dev nD) → (b : Ref sig .tc) → Buf (Elt Ideal) ((c : Thread nD τ).loc b))

theorem hz : (![0, 0] : Fin 2 → Nat) = fun _ => 0 := funext fun a => by fin_cases a <;> rfl

/-- The body's stored value is the product of its two loaded blocks. -/
theorem pay_eq (x0 : Vec Ideal S2000x256 .f32) (x1 : Vec Ideal S256x128 .f32) :
    k2_pay1 (F := Ideal) x0 x1 = mm (m := 2000) (k := 256) (n := 128) (φ₁ := .f32) (φ₂ := .f32) x0 x1 := by
  unfold k2_pay1
  have hs : shapeCast S2000x256 x0 shapeCasts_S2000x256_S2000x256 = x0 := shapeCast_self x0 _
  exact (matmul_plain_zero_eq (m := 2000) (k := 256) (n := 128) none (shapeCast S2000x256 x0 shapeCasts_S2000x256_S2000x256) x1).trans (by rw [hs]; rfl)

/-- The printed index maps over the grid: the left and the output block sit at row block t, column block 0; the right
    block is the whole array. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- An entry of the left block at point t is the entry of the left array in row 2000·t + p. -/
theorem left_block (c : Dev nD) (t : Fin cfg2.N) (p : Fin 2000) (k : Fin 256) (h : t.val * 2000 + p.val < 50000) :
    iblk2 V c 0 t (ix2 p k) = V c main_v65 (ix2 (⟨t.val * 2000 + p.val, h⟩ : Fin 50000) k) := by
  obtain ⟨e0, e1, -, -, -, -⟩ := idx_facts t
  show V c main_v65 (((cfg2.win 0).blk t).view.emb (ix2 p k)) = _
  refine congrArg (V c main_v65) ?_
  funext a; apply Fin.ext
  match a with
  | ⟨0, _⟩ => show win2_0.index t (0 : Fin 2) * 2000 + 1 * p.val = t.val * 2000 + p.val; omega
  | ⟨1, _⟩ => show win2_0.index t (1 : Fin 2) * 256 + 1 * k.val = k.val; omega

/-- The right block at any point is the right array. -/
theorem right_block (c : Dev nD) (t : Fin cfg2.N) (k : Fin 256) (q : Fin 128) :
    iblk2 V c 1 t (ix2 k q) = V c main_arg5 (ix2 k q) := by
  obtain ⟨-, -, e2, e3, -, -⟩ := idx_facts t
  show V c main_arg5 (((cfg2.win 1).blk t).view.emb (ix2 k q)) = _
  refine congrArg (V c main_arg5) ?_
  funext a; apply Fin.ext
  match a with
  | ⟨0, _⟩ => show win2_1.index t (0 : Fin 2) * 256 + 1 * k.val = k.val; omega
  | ⟨1, _⟩ => show win2_1.index t (1 : Fin 2) * 128 + 1 * q.val = q.val; omega

/-- What point t writes back is block t of the product of the two arrays as the region finds them. -/
theorem flushed_eq (c : Dev nD) (t : Fin cfg2.N) :
    (dat2 V c).flushed 2 t = ((cfg2.win 2).blk t).view.read (Elt Ideal)
      (mm (m := 50000) (k := 256) (n := 128) (φ₁ := .f32) (φ₂ := .f32) (V c main_v65) (V c main_arg5)) := by
  show (cfg2.win 2).cut (grid2.coords t) ((dat2 V c).after 2 t) = _
  rw [after2_2]
  unfold out2_2
  rw [View.canon_unit_zero hz]
  simp only [View.ld_unit_zero (S := S2000x256) hz, View.ld_unit_zero (S := S256x128) hz]
  rw [pay_eq]
  obtain ⟨-, -, -, -, e4, e5⟩ := idx_facts t
  have ht : t.val < 25 := t.isLt
  funext j
  obtain ⟨p, q, rfl⟩ : ∃ (p : Fin 2000) (q : Fin 128), j = ix2 p q := ⟨j 0, j 1, eq_ix2 j⟩
  have hp : t.val * 2000 + p.val < 50000 := by have := p.isLt; omega
  have he : ((cfg2.win 2).blk t).view.emb (ix2 p q) = ix2 (⟨t.val * 2000 + p.val, hp⟩ : Fin 50000) q := by
    funext a; apply Fin.ext
    match a with
    | ⟨0, _⟩ => show win2_2.index t (0 : Fin 2) * 2000 + 1 * p.val = t.val * 2000 + p.val; omega
    | ⟨1, _⟩ => show win2_2.index t (1 : Fin 2) * 128 + 1 * q.val = q.val; omega
  show mm (iblk2 V c 0 t) (iblk2 V c 1 t) (ix2 p q) = mm (V c main_v65) (V c main_arg5) (((cfg2.win 2).blk t).view.emb (ix2 p q))
  rw [he, mm_apply, mm_apply]
  refine Finset.sum_congr rfl fun k _ => ?_
  rw [left_block V c t p k hp, right_block V c t k q]

/-- An index of the output array is in point t's block iff each coordinate is in the block's range on its axis. -/
theorem mem_blk (t : Fin cfg2.N) (i : S50000x128.Idx) :
    i ∈ ((cfg2.win 2).blk t).view.set ↔ ∀ a : Fin 2, win2_2.index t a * S2000x128.size a ≤ (i a).val ∧ (i a).val < win2_2.index t a * S2000x128.size a + S2000x128.size a := by
  show i ∈ ((View.whole main_v66).slice (win2_2.rect t)).set ↔ _
  rw [View.set_slice_whole, Rect.mem_set_unit]
  exact Iff.rfl

/-- Every index of the output array is in the block of the point its row falls in. -/
theorem cover (i : S50000x128.Idx) : ∃ t : Fin cfg2.N, (cfg2.win 2).flush t = true ∧ i ∈ ((cfg2.win 2).blk t).view.set := by
  have hi0 : (i 0).val < 50000 := (i 0).isLt
  have hi1 : (i 1).val < 128 := (i 1).isLt
  let t : Fin cfg2.N := ⟨(i 0).val / 2000, by show (i 0).val / 2000 < 25; omega⟩
  obtain ⟨-, -, -, -, e4, e5⟩ := idx_facts t
  have e4' : win2_2.index t (0 : Fin 2) = (i 0).val / 2000 := e4
  refine ⟨t, flush2_2 t, ?_⟩
  rw [mem_blk]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 128 ≤ (i 1).val ∧ (i 1).val < win2_2.index t (1 : Fin 2) * 128 + 128; omega

/-- The output array after the region: the product of the two input arrays as the region finds them. -/
theorem product (c : Dev nD) :
    (dat2 V c).arrAt 2 cfg2.N = mm (m := 50000) (k := 256) (n := 128) (φ₁ := .f32) (φ₂ := .f32) (V c main_v65) (V c main_arg5) :=
  (dat2 V c).arrAt_eq_of_cover 2 _ (fun t _ => flushed_eq V c t) cover

end Cert.KernelIdeal.Rows2

end
-- ==== Proof.HeadMu.lean ====
/-
  The first output head (mu) of the kernel's @main.

  Pallas_call 2 finds the second layer's output %65 and the mu weight matrix, and leaves their product in %66, which is
  the reference's dot_general stage %66. The host operations %67 … %82 — gather, scale, scatter-add, add the mu bias row,
  no activation — are the reference's, so the first result %82 is the reference's stage %82 of the arguments. Pallas_call
  2 only reads %65, so the next pallas_call finds it unchanged.
-/
import proofs.«126490_j50148038148378_1_alg».proof.Proof.Layer2
import proofs.«126490_j50148038148378_1_alg».proof.Proof.Rows2
import Idealize.ShloMosaic.Lib.StableHlo.Run

set_option maxRecDepth 16384

noncomputable section

namespace Cert.KernelIdeal.HeadMu

open Idealize.ShloMosaic Idealize.ShloMosaic.TcCoe Idealize.SL.Sem Idealize.ShloMosaic.StableHlo
open Cert.KernelIdeal Cert.KernelIdeal.Gen Cert.KernelIdeal.Kept Cert.KernelIdeal.Entry0 Cert.KernelIdeal.Layer2 Cert.LibDenseProduct
open Cert.ReferenceIdeal.Read (val_main_v3 val_main_v6 val_main_v29 val_main_v30 val_main_v47 val_main_v48 val_main_v65 val_main_v66
  val_main_v82 val_main_v83 val_main_v99)

variable (m : (ℓ : Loc nD τ sig) → Buf (Elt Ideal) ℓ) (ρ : Dev nD → PrngReg) (c : Dev nD)

/-- The edge lists and the edge weights at this boundary. -/
theorem W10_v3 : W10 m ρ c (Proc.devRef .tc main_v3) = val_main_v3 (F := Ideal) (m ((c : Thread nD τ).loc main_arg9)) :=
  (keep10 m ρ c main_v3 (by decide)).trans (W3_v3 m ρ c)
theorem W10_v6 : W10 m ρ c (Proc.devRef .tc main_v6) = val_main_v6 (F := Ideal) (m ((c : Thread nD τ).loc main_arg9)) :=
  (keep10 m ρ c main_v6 (by decide)).trans (W3_v6 m ρ c)
theorem W10_v29 : W10 m ρ c (Proc.devRef .tc main_v29) = val_main_v29 (F := Ideal) (m ((c : Thread nD τ).loc main_arg9)) :=
  (keep10 m ρ c main_v29 (by decide)).trans (W3_v29 m ρ c)

theorem W10_arg6 : W10 m ρ c (Proc.devRef .tc main_arg6) = m ((c : Thread nD τ).loc main_arg6) :=
  (keep10 m ρ c main_arg6 (by decide)).trans (W3_arg6 m ρ c)

theorem W9_arg5 : W9 m ρ c (Proc.devRef .tc main_arg5) = m ((c : Thread nD τ).loc main_arg5) :=
  (keep9 m ρ c main_arg5 (by decide)).trans (W3_arg5 m ρ c)

/-- Pallas_call 2's output is the reference's product stage: both are the dense product of the same two arrays. -/
theorem W10_v66 : W10 m ρ c (Proc.devRef .tc main_v66) = val_main_v66 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg9)) := by
  refine (W10_arr m ρ c 2).trans ((Rows2.product (V9 m ρ) c).trans ?_)
  show mm (m := 50000) (k := 256) (n := 128) (φ₁ := .f32) (φ₂ := .f32) (W9 m ρ c (Proc.devRef .tc main_v65)) (W9 m ρ c (Proc.devRef .tc main_arg5)) = _
  rw [W9_v65 m ρ c, W9_arg5 m ρ c]
  exact (dotGeneral_plain_eq (m := 50000) (k := 256) (n := 128) none _ _).symm

set_option maxHeartbeats 2000000 in
/-- Gather the rows of the product at the source list, scale by the edge weights, scatter-add into the target rows from
    zero, add the bias row: the reference's operations, one for one, on the same arrays. -/
theorem W11_v82 : W11 m ρ c (Proc.devRef .tc main_v82) = Cert.ReferenceIdeal.Read.val_main_v82 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) := by
  have eh := W10_v66 m ρ c
  have e3 := W10_v3 m ρ c
  have e6 := W10_v6 m ρ c
  have e29 := W10_v29 m ρ c
  have eb := W10_arg6 m ρ c
  show StableHlo.after hostOps3 (W10 m ρ c) (Proc.devRef .tc main_v82) = _
  generalize W10 m ρ c = X at eh e3 e6 e29 eb ⊢
  after_results
  rw [eh, e3, e6, e29, eb]
  rfl

/-- Pallas_call 2 leaves its left input as it found it. -/
theorem W10_v65 : W10 m ρ c (Proc.devRef .tc main_v65) = val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg9)) :=
  ((W10_arr m ρ c 0).trans (((dat2 (V9 m ρ) c).arrAt_in 0 rfl _).trans (A_eq2 (V9 m ρ) c 0))).trans (W9_v65 m ρ c)

/-- No operation of the mu head writes %65. -/
theorem W11_v65 : W11 m ρ c (Proc.devRef .tc main_v65) = val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg9)) := by
  refine Eq.trans ?_ (W10_v65 m ρ c)
  show StableHlo.after hostOps3 (W10 m ρ c) (Proc.devRef .tc main_v65) = _
  generalize W10 m ρ c = X
  after_results

end Cert.KernelIdeal.HeadMu

end
-- ==== Proof.Rows3.lean ====
/-
  Region 3 of the kernel's @main: the array the pallas_call leaves.

  The grid has 25 points; point t loads rows 2000·t … 2000·t + 1999 of the left array (all 256 columns), the whole
  256×128 right array, and stores their product as rows 2000·t … 2000·t + 1999 of the output. Row r of a product reads
  row r of the left factor only, so each stored block is the same rows of the product of the two WHOLE arrays; the 25
  blocks tile the 50000 rows, so the output array ends as that product. At the ideal values the change of number format
  before the matrix unit is the identity, the shape cast in front of it is to the same shape, and the accumulator starts at 0.
-/
import proofs.«126490_j50148038148378_1_alg».proof.Proof.Gen.KernelIdeal.Frame
import proofs.«126490_j50148038148378_1_alg».proof.Proof.LibDenseProduct
import Idealize.ShloMosaic.Lib.Pipeline.Value
import Idealize.ShloMosaic.Lib.ValueIdx

set_option maxRecDepth 16384

noncomputable section

namespace Cert.KernelIdeal.Rows3

open Idealize.ShloMosaic Idealize.ShloMosaic.TcCoe Idealize.ShloMosaic.ValueIdx Idealize.SL.Sem
open Idealize.ShloMosaic.Pipeline (Dat)
open Cert.KernelIdeal Cert.KernelIdeal.Gen Cert.LibDenseProduct

-- the buffer contents when the region is entered: a parameter of every statement below
variable (V : (c : Dev nD) → (b : Ref sig .tc) → Buf (Elt Ideal) ((c : Thread nD τ).loc b))

theorem hz : (![0, 0] : Fin 2 → Nat) = fun _ => 0 := funext fun a => by fin_cases a <;> rfl

/-- The body's stored value is the product of its two loaded blocks. -/
theorem pay_eq (x0 : Vec Ideal S2000x256 .f32) (x1 : Vec Ideal S256x128 .f32) :
    k3_pay1 (F := Ideal) x0 x1 = mm (m := 2000) (k := 256) (n := 128) (φ₁ := .f32) (φ₂ := .f32) x0 x1 := by
  unfold k3_pay1
  have hs : shapeCast S2000x256 x0 shapeCasts_S2000x256_S2000x256 = x0 := shapeCast_self x0 _
  exact (matmul_plain_zero_eq (m := 2000) (k := 256) (n := 128) none (shapeCast S2000x256 x0 shapeCasts_S2000x256_S2000x256) x1).trans (by rw [hs]; rfl)

/-- The printed index maps over the grid: the left and the output block sit at row block t, column block 0; the right
    block is the whole array. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- An entry of the left block at point t is the entry of the left array in row 2000·t + p. -/
theorem left_block (c : Dev nD) (t : Fin cfg3.N) (p : Fin 2000) (k : Fin 256) (h : t.val * 2000 + p.val < 50000) :
    iblk3 V c 0 t (ix2 p k) = V c main_v65 (ix2 (⟨t.val * 2000 + p.val, h⟩ : Fin 50000) k) := by
  obtain ⟨e0, e1, -, -, -, -⟩ := idx_facts t
  show V c main_v65 (((cfg3.win 0).blk t).view.emb (ix2 p k)) = _
  refine congrArg (V c main_v65) ?_
  funext a; apply Fin.ext
  match a with
  | ⟨0, _⟩ => show win3_0.index t (0 : Fin 2) * 2000 + 1 * p.val = t.val * 2000 + p.val; omega
  | ⟨1, _⟩ => show win3_0.index t (1 : Fin 2) * 256 + 1 * k.val = k.val; omega

/-- The right block at any point is the right array. -/
theorem right_block (c : Dev nD) (t : Fin cfg3.N) (k : Fin 256) (q : Fin 128) :
    iblk3 V c 1 t (ix2 k q) = V c main_arg7 (ix2 k q) := by
  obtain ⟨-, -, e2, e3, -, -⟩ := idx_facts t
  show V c main_arg7 (((cfg3.win 1).blk t).view.emb (ix2 k q)) = _
  refine congrArg (V c main_arg7) ?_
  funext a; apply Fin.ext
  match a with
  | ⟨0, _⟩ => show win3_1.index t (0 : Fin 2) * 256 + 1 * k.val = k.val; omega
  | ⟨1, _⟩ => show win3_1.index t (1 : Fin 2) * 128 + 1 * q.val = q.val; omega

/-- What point t writes back is block t of the product of the two arrays as the region finds them. -/
theorem flushed_eq (c : Dev nD) (t : Fin cfg3.N) :
    (dat3 V c).flushed 2 t = ((cfg3.win 2).blk t).view.read (Elt Ideal)
      (mm (m := 50000) (k := 256) (n := 128) (φ₁ := .f32) (φ₂ := .f32) (V c main_v65) (V c main_arg7)) := by
  show (cfg3.win 2).cut (grid3.coords t) ((dat3 V c).after 2 t) = _
  rw [after3_2]
  unfold out3_2
  rw [View.canon_unit_zero hz]
  simp only [View.ld_unit_zero (S := S2000x256) hz, View.ld_unit_zero (S := S256x128) hz]
  rw [pay_eq]
  obtain ⟨-, -, -, -, e4, e5⟩ := idx_facts t
  have ht : t.val < 25 := t.isLt
  funext j
  obtain ⟨p, q, rfl⟩ : ∃ (p : Fin 2000) (q : Fin 128), j = ix2 p q := ⟨j 0, j 1, eq_ix2 j⟩
  have hp : t.val * 2000 + p.val < 50000 := by have := p.isLt; omega
  have he : ((cfg3.win 2).blk t).view.emb (ix2 p q) = ix2 (⟨t.val * 2000 + p.val, hp⟩ : Fin 50000) q := by
    funext a; apply Fin.ext
    match a with
    | ⟨0, _⟩ => show win3_2.index t (0 : Fin 2) * 2000 + 1 * p.val = t.val * 2000 + p.val; omega
    | ⟨1, _⟩ => show win3_2.index t (1 : Fin 2) * 128 + 1 * q.val = q.val; omega
  show mm (iblk3 V c 0 t) (iblk3 V c 1 t) (ix2 p q) = mm (V c main_v65) (V c main_arg7) (((cfg3.win 2).blk t).view.emb (ix2 p q))
  rw [he, mm_apply, mm_apply]
  refine Finset.sum_congr rfl fun k _ => ?_
  rw [left_block V c t p k hp, right_block V c t k q]

/-- An index of the output array is in point t's block iff each coordinate is in the block's range on its axis. -/
theorem mem_blk (t : Fin cfg3.N) (i : S50000x128.Idx) :
    i ∈ ((cfg3.win 2).blk t).view.set ↔ ∀ a : Fin 2, win3_2.index t a * S2000x128.size a ≤ (i a).val ∧ (i a).val < win3_2.index t a * S2000x128.size a + S2000x128.size a := by
  show i ∈ ((View.whole main_v83).slice (win3_2.rect t)).set ↔ _
  rw [View.set_slice_whole, Rect.mem_set_unit]
  exact Iff.rfl

/-- Every index of the output array is in the block of the point its row falls in. -/
theorem cover (i : S50000x128.Idx) : ∃ t : Fin cfg3.N, (cfg3.win 2).flush t = true ∧ i ∈ ((cfg3.win 2).blk t).view.set := by
  have hi0 : (i 0).val < 50000 := (i 0).isLt
  have hi1 : (i 1).val < 128 := (i 1).isLt
  let t : Fin cfg3.N := ⟨(i 0).val / 2000, by show (i 0).val / 2000 < 25; omega⟩
  obtain ⟨-, -, -, -, e4, e5⟩ := idx_facts t
  have e4' : win3_2.index t (0 : Fin 2) = (i 0).val / 2000 := e4
  refine ⟨t, flush3_2 t, ?_⟩
  rw [mem_blk]
  intro a
  match a with
  | ⟨0, _⟩ => show win3_2.index t (0 : Fin 2) * 2000 ≤ (i 0).val ∧ (i 0).val < win3_2.index t (0 : Fin 2) * 2000 + 2000; omega
  | ⟨1, _⟩ => show win3_2.index t (1 : Fin 2) * 128 ≤ (i 1).val ∧ (i 1).val < win3_2.index t (1 : Fin 2) * 128 + 128; omega

/-- The output array after the region: the product of the two input arrays as the region finds them. -/
theorem product (c : Dev nD) :
    (dat3 V c).arrAt 2 cfg3.N = mm (m := 50000) (k := 256) (n := 128) (φ₁ := .f32) (φ₂ := .f32) (V c main_v65) (V c main_arg7) :=
  (dat3 V c).arrAt_eq_of_cover 2 _ (fun t _ => flushed_eq V c t) cover

end Cert.KernelIdeal.Rows3

end
-- ==== Proof.HeadLs.lean ====
/-
  The second output head (logstd) of the kernel's @main, and both results at the return.

  Pallas_call 3 finds the second layer's output %65 and the logstd weight matrix, and leaves their product in %83, the
  reference's dot_general stage %83. The host operations %84 … %99 are the reference's, so the second result %99 is the
  reference's stage %99 of the arguments. Neither pallas_call 3 nor the operations after it write the first result %82,
  so at the return it still holds the reference's stage %82.
-/
import proofs.«126490_j50148038148378_1_alg».proof.Proof.HeadMu
import proofs.«126490_j50148038148378_1_alg».proof.Proof.Rows3
import Idealize.ShloMosaic.Lib.StableHlo.Run

set_option maxRecDepth 16384

noncomputable section

namespace Cert.KernelIdeal.HeadLs

open Idealize.ShloMosaic Idealize.ShloMosaic.TcCoe Idealize.SL.Sem Idealize.ShloMosaic.StableHlo
open Cert.KernelIdeal Cert.KernelIdeal.Gen Cert.KernelIdeal.Kept Cert.KernelIdeal.Entry0 Cert.KernelIdeal.HeadMu Cert.LibDenseProduct
open Cert.ReferenceIdeal.Read (val_main_v3 val_main_v6 val_main_v29 val_main_v30 val_main_v47 val_main_v48 val_main_v65 val_main_v66
  val_main_v82 val_main_v83 val_main_v99)

variable (m : (ℓ : Loc nD τ sig) → Buf (Elt Ideal) ℓ) (ρ : Dev nD → PrngReg) (c : Dev nD)

/-- The edge lists and the edge weights at this boundary. -/
theorem W12_v3 : W12 m ρ c (Proc.devRef .tc main_v3) = val_main_v3 (F := Ideal) (m ((c : Thread nD τ).loc main_arg9)) :=
  (keep12 m ρ c main_v3 (by decide)).trans (W3_v3 m ρ c)
theorem W12_v6 : W12 m ρ c (Proc.devRef .tc main_v6) = val_main_v6 (F := Ideal) (m ((c : Thread nD τ).loc main_arg9)) :=
  (keep12 m ρ c main_v6 (by decide)).trans (W3_v6 m ρ c)
theorem W12_v29 : W12 m ρ c (Proc.devRef .tc main_v29) = val_main_v29 (F := Ideal) (m ((c : Thread nD τ).loc main_arg9)) :=
  (keep12 m ρ c main_v29 (by decide)).trans (W3_v29 m ρ c)

theorem W12_arg8 : W12 m ρ c (Proc.devRef .tc main_arg8) = m ((c : Thread nD τ).loc main_arg8) :=
  (keep12 m ρ c main_arg8 (by decide)).trans (W3_arg8 m ρ c)

theorem W11_arg7 : W11 m ρ c (Proc.devRef .tc main_arg7) = m ((c : Thread nD τ).loc main_arg7) :=
  (keep11 m ρ c main_arg7 (by decide)).trans (W3_arg7 m ρ c)

/-- Pallas_call 3's output is the reference's product stage: both are the dense product of the same two arrays. -/
theorem W12_v83 : W12 m ρ c (Proc.devRef .tc main_v83) = val_main_v83 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg9)) := by
  refine (W12_arr m ρ c 2).trans ((Rows3.product (V11 m ρ) c).trans ?_)
  show mm (m := 50000) (k := 256) (n := 128) (φ₁ := .f32) (φ₂ := .f32) (W11 m ρ c (Proc.devRef .tc main_v65)) (W11 m ρ c (Proc.devRef .tc main_arg7)) = _
  rw [W11_v65 m ρ c, W11_arg7 m ρ c]
  exact (dotGeneral_plain_eq (m := 50000) (k := 256) (n := 128) none _ _).symm

set_option maxHeartbeats 2000000 in
/-- Gather the rows of the product at the source list, scale by the edge weights, scatter-add into the target rows from
    zero, add the bias row: the reference's operations, one for one, on the same arrays. -/
theorem W13_v99 : W13 m ρ c (Proc.devRef .tc main_v99) = Cert.ReferenceIdeal.Read.val_main_v99 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg9)) := by
  have eh := W12_v83 m ρ c
  have e3 := W12_v3 m ρ c
  have e6 := W12_v6 m ρ c
  have e29 := W12_v29 m ρ c
  have eb := W12_arg8 m ρ c
  show StableHlo.after hostOps4 (W12 m ρ c) (Proc.devRef .tc main_v99) = _
  generalize W12 m ρ c = X at eh e3 e6 e29 eb ⊢
  after_results
  rw [eh, e3, e6, e29, eb]
  rfl

/-- Pallas_call 3 does not touch the first result. -/
theorem W12_v82 : W12 m ρ c (Proc.devRef .tc main_v82) = val_main_v82 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) :=
  (W12_of_ne m ρ c main_v82 (by decide)).trans (W11_v82 m ρ c)

/-- Nor does any operation after it. -/
theorem W13_v82 : W13 m ρ c (Proc.devRef .tc main_v82) = val_main_v82 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) := by
  refine Eq.trans ?_ (W12_v82 m ρ c)
  show StableHlo.after hostOps4 (W12 m ρ c) (Proc.devRef .tc main_v82) = _
  generalize W12 m ρ c = X
  after_results

end Cert.KernelIdeal.HeadLs

end
-- ==== Proof.lean ====
/-
  The certificate of a two-layer graph convolutional encoder with two output heads (mu, logstd) over 50000 nodes and
  800000 edges plus self-loops: the kernel computes each of its four dense products x·W by a pallas_call over 25 blocks of
  2000 rows, its operands narrowed to bf16 before the matrix unit and accumulated in f32; the reference computes them by
  dot_general. Everything else — the degrees by a scatter-add of ones, the guarded inverse square roots, the edge weights
  dinv[src]·dinv[dst], and per layer the gather at the sources, the scaling, the scatter-add into the targets, the bias
  and the relu — is the same sequence of host operations in both programs.

  At the ideal values a change of number format is the identity and a product of two matrices is, entry by entry, the sum
  over the contracted coordinate, however its rows are tiled: so each pallas_call leaves the array the reference's
  dot_general leaves (Proof/Rows0 … Rows3, Proof/LibDenseProduct), and every host operation in between is applied to equal
  arrays in both programs (Proof/Entry0, Layer1, Layer2, HeadMu, HeadLs, over the thirteen buffers nothing rewrites:
  Proof/Kept). Both results of the kernel are therefore the reference's own stages of the arguments. No law of the
  extended reals beyond this reading of a product is used, and finiteness of the inputs is never needed.

  The three frames: the two kernel programs' are the frame certificates of their four regions; the reference's is its run
  with the results dropped. The ideal pass rewrote nothing, so what it preserves is nothing to show.
-/
import proofs.«126490_j50148038148378_1_alg».proof.Defs
import proofs.«126490_j50148038148378_1_alg».proof.Proof.Gen.Kernel
import proofs.«126490_j50148038148378_1_alg».proof.Proof.Gen.Kernel.Frame
import proofs.«126490_j50148038148378_1_alg».proof.Proof.Gen.KernelIdeal
import proofs.«126490_j50148038148378_1_alg».proof.Proof.Gen.KernelIdeal.Frame
import proofs.«126490_j50148038148378_1_alg».proof.Proof.Gen.ReferenceIdeal
import proofs.«126490_j50148038148378_1_alg».proof.Proof.Gen.Pre_finite_inputs
import proofs.«126490_j50148038148378_1_alg».proof.Proof.RefRunP
import proofs.«126490_j50148038148378_1_alg».proof.Proof.RefReadP
import proofs.«126490_j50148038148378_1_alg».proof.Proof.KernelRun
import proofs.«126490_j50148038148378_1_alg».proof.Proof.HeadLs
import Idealize.ShloMosaic.Adequacy
import Idealize.ShloMosaic.Init

noncomputable section

namespace Cert.Proof

open Idealize.ShloMosaic Idealize.ShloMosaic.TcCoe Idealize.SL.Sem
open Cert.ReferenceIdeal.Read (val_main_v82 val_main_v99 val_main_v82_eq val_main_v99_eq)

theorem frame_kernel : Cert.frame_Kernel := fun m ρ _ => Cert.Kernel.Gen.frame m ρ

theorem frame_kernelIdeal : Cert.frame_KernelIdeal := fun m ρ _ => Cert.KernelIdeal.Gen.frame m ρ

/-- The reference's run ends with the arguments as launched; the frame keeps that and drops the results. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The ideal pass rewrote no operation. -/
theorem preserves : Cert.preserves_Kernel_KernelIdeal := trivial

/-- Both programs end with mu at the reference's stage %82 and logstd at its stage %99 of the (agreeing) arguments. -/
theorem algebraic : Cert.algebraic_KernelIdeal_ReferenceIdeal := by
  intro m ρ m' ρ' _ hagree
  refine ⟨fun c => val_main_v82 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg9)),
    fun c => val_main_v99 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.HeadLs.W13_v82 m ρ c), (h c).2.1.trans (Cert.KernelIdeal.HeadLs.W13_v99 m ρ c), (h c).2.2⟩)
      (Cert.KernelIdeal.Results.run (F := Ideal) m ρ)
  · refine (θ_run Cert.ReferenceIdeal.defs _ _).mono (fun r h c => ⟨(h c).1.trans ?_, (h c).2.1.trans ?_, (h c).2.2⟩)
      (Cert.ReferenceIdeal.Value.run (F := Ideal) m' ρ')
    · obtain ⟨h0, h1, h2, h3, h4, h5, h6, h7, h8, h9⟩ := hagree c
      rw [val_main_v82_eq, h0, h1, h2, h3, h4, h5, h6, h9]
    · obtain ⟨h0, h1, h2, h3, h4, h5, h6, h7, h8, h9⟩ := hagree c
      rw [val_main_v99_eq, h0, h1, h2, h3, h4, h7, h8, h9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
